-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x1024x1024 : Shape := ⟨4, ![8, 4, 1024, 1024]⟩
abbrev S8x1024x1024 : Shape := ⟨3, ![8, 1024, 1024]⟩
abbrev S8x4x4096x256 : Shape := ⟨4, ![8, 4, 4096, 256]⟩
abbrev S_ : Shape := ⟨0, ![]⟩

class Facts : Prop where
  bcast_S_S8x4x1024x1024 : S_.BroadcastsInDim S8x4x1024x1024 (![] : Fin 0 → Fin S8x4x1024x1024.rank)
  reducesTo_S8x4x1024x1024_S_d0_1_2_3 : S8x4x1024x1024.ReducesTo [0, 1, 2, 3] S_
  h_S_ : 0 < S_.numel
  bcast_S_S8x4x4096x256 : S_.BroadcastsInDim S8x4x4096x256 (![] : Fin 0 → Fin S8x4x4096x256.rank)
  reducesTo_S8x4x4096x256_S_d0_1_2_3 : S8x4x4096x256.ReducesTo [0, 1, 2, 3] S_

variable [Facts]

def fn {F : FTy → Type} [FloatOps F] (main_arg0 : FVec F S8x4x1024x1024 .f32) (main_arg1 : IVec S8x1024x1024 32) (main_arg2 : FVec F S8x4x4096x256 .f32) : IVec S_ 1 :=
  let main_v0 : FVec F S8x4x1024x1024 .f32 := Host.absf main_arg0
  let main_cst : FVec F S_ .f32 := constant S_ .f32 0x7F800000#32
  let main_v1 : FVec F S8x4x1024x1024 .f32 := broadcastInDim S8x4x1024x1024 ![] bcast_S_S8x4x1024x1024 main_cst
  let main_v2 : IVec S8x4x1024x1024 1 := cmpf .olt main_v0 main_v1
  let main_c : IVec S_ 1 := constantI S_ 1 1#1
  let main_v3 : IVec S_ 1 := (fun x v => Host.reduce IntOp.andi x v reducesTo_S8x4x1024x1024_S_d0_1_2_3 h_S_) main_v2 main_c
  let main_v4 : FVec F S8x4x4096x256 .f32 := Host.absf main_arg2
  let main_cst_0 : FVec F S_ .f32 := constant S_ .f32 0x7F800000#32
  let main_v5 : FVec F S8x4x4096x256 .f32 := broadcastInDim S8x4x4096x256 ![] bcast_S_S8x4x4096x256 main_cst_0
  let main_v6 : IVec S8x4x4096x256 1 := cmpf .olt main_v4 main_v5
  let main_c_1 : IVec S_ 1 := constantI S_ 1 1#1
  let main_v7 : IVec S_ 1 := (fun x v => Host.reduce IntOp.andi x v reducesTo_S8x4x4096x256_S_d0_1_2_3 h_S_) main_v6 main_c_1
  let main_v8 : IVec S_ 1 := andi main_v3 main_v7
  main_v8
-- ==== Kernel.lean ====
abbrev S8x4x1024x1024 : Shape := ⟨4, ![8, 4, 1024, 1024]⟩
abbrev S8x1024x1024 : Shape := ⟨3, ![8, 1024, 1024]⟩
abbrev S8x4x4096x256 : Shape := ⟨4, ![8, 4, 4096, 256]⟩
abbrev S8x4x256x256 : Shape := ⟨4, ![8, 4, 256, 256]⟩
abbrev S1x1024x1024 : Shape := ⟨3, ![1, 1024, 1024]⟩
abbrev S1x4x256x256 : Shape := ⟨4, ![1, 4, 256, 256]⟩
abbrev S1024x1024 : Shape := ⟨2, ![1024, 1024]⟩
abbrev S256x4x1024 : Shape := ⟨3, ![256, 4, 1024]⟩
abbrev S256x1024 : Shape := ⟨2, ![256, 1024]⟩
abbrev S256x256x4 : Shape := ⟨3, ![256, 256, 4]⟩
abbrev S256x256 : Shape := ⟨2, ![256, 256]⟩
abbrev S1x1x256x256 : Shape := ⟨4, ![1, 1, 256, 256]⟩
abbrev S1x1 : Shape := ⟨2, ![1, 1]⟩
abbrev S1x256x1024 : Shape := ⟨3, ![1, 256, 1024]⟩
abbrev S1x4x1024x256 : Shape := ⟨4, ![1, 4, 1024, 256]⟩
abbrev S16x16x64x16 : Shape := ⟨4, ![16, 16, 64, 16]⟩
abbrev S16x16x16x64 : Shape := ⟨4, ![16, 16, 16, 64]⟩
abbrev S16x16x16x16 : Shape := ⟨4, ![16, 16, 16, 16]⟩
abbrev S1024x256 : Shape := ⟨2, ![1024, 256]⟩
abbrev S1x1x1024x256 : Shape := ⟨4, ![1, 1, 1024, 256]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 6
  | .vmem => 12
  | .smem => 0
  | _ => 0

abbrev bufTy : (tb : Table) → Fin (tcTables nBuf tb) → BufTy
  | .hbm, ⟨0, _⟩ => ⟨S8x4x1024x1024, .f32⟩
  | .hbm, ⟨1, _⟩ => ⟨S8x1024x1024, .i32⟩
  | .hbm, ⟨2, _⟩ => ⟨S8x4x4096x256, .f32⟩
  | .hbm, ⟨3, _⟩ => ⟨S8x4x256x256, .f32⟩
  | .hbm, ⟨4, _⟩ => ⟨S1x1, .f32⟩
  | .hbm, ⟨5, _⟩ => ⟨S_, .f32⟩
  | .local _ .vmem, ⟨0, _⟩ => ⟨S1x1024x1024, .i32⟩
  | .local _ .vmem, ⟨1, _⟩ => ⟨S1x1024x1024, .i32⟩
  | .local _ .vmem, ⟨2, _⟩ => ⟨S1x4x256x256, .f32⟩
  | .local _ .vmem, ⟨3, _⟩ => ⟨S1x4x256x256, .f32⟩
  | .local _ .vmem, ⟨4, _⟩ => ⟨S1x256x1024, .i32⟩
  | .local _ .vmem, ⟨5, _⟩ => ⟨S1x256x1024, .i32⟩
  | .local _ .vmem, ⟨6, _⟩ => ⟨S1x4x256x256, .f32⟩
  | .local _ .vmem, ⟨7, _⟩ => ⟨S1x4x256x256, .f32⟩
  | .local _ .vmem, ⟨8, _⟩ => ⟨S1x4x1024x256, .f32⟩
  | .local _ .vmem, ⟨9, _⟩ => ⟨S1x4x1024x256, .f32⟩
  | .local _ .vmem, ⟨10, _⟩ => ⟨S1x1, .f32⟩
  | .local _ .vmem, ⟨11, _⟩ => ⟨S1x1, .f32⟩
  | _, _ => ⟨S8x4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_off1 (k0_t1 : Fin k0_t1_loop.trips) : Fin 4 → Nat :=
  let c0_5 : Index := 0#32
  let c0_i32 : BitVec 32 := 0#32
  let c1_i32 : BitVec 32 := 1#32
  let arg3 : BitVec 32 := Scf.iv c0_i32 c1_i32 k0_t1
  let v13 : Index := Scalar.indexCast arg3
  let c0_6 : Index := 0#32
  let c0_7 : Index := 0#32
  ![0, v13.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 4], ![false, false]⟩

@[reducible] def k1_t1_loop : Scf.Loop 32 :=
  let c0_i32_4 : BitVec 32 := 0#32
  let c4_i32 : BitVec 32 := 4#32
  let v7 : BitVec 32 := Scalar.addi c0_i32_4 c4_i32
  let c1_i32 : BitVec 32 := 1#32
  ⟨c0_i32_4, v7, c1_i32⟩
def k1_off1 (k1_t1 : Fin k1_t1_loop.trips) : Fin 4 → Nat :=
  let c0_7 : Index := 0#32
  let c0_i32_4 : BitVec 32 := 0#32
  let c1_i32 : BitVec 32 := 1#32
  let arg7 : BitVec 32 := Scf.iv c0_i32_4 c1_i32 k1_t1
  let v20 : Index := Scalar.indexCast arg7
  let c0_8 : Index := 0#32
  let c0_9 : Index := 0#32
  ![0, v20.toNat, 0, 0]
def k1_off2 (k1_t1 : Fin k1_t1_loop.trips) : Fin 4 → Nat :=
  let c0_11 : Index := 0#32
  let c0_i32_4 : BitVec 32 := 0#32
  let c1_i32 : BitVec 32 := 1#32
  let arg7 : BitVec 32 := Scf.iv c0_i32_4 c1_i32 k1_t1
  let v31 : Index := Scalar.indexCast arg7
  let c0_12 : Index := 0#32
  let c0_13 : Index := 0#32
  ![0, v31.toNat, 0, 0]
def k1_cond2 (i : grid1.Coords) : BitVec 1 :=
  let arg0 : BitVec 32 := BitVec.ofNat 32 (i 0).val
  let c7_i32 : BitVec 32 := 7#32
  let v8 : BitVec 1 := Scalar.cmpi .eq arg0 c7_i32
  let arg1 : BitVec 32 := BitVec.ofNat 32 (i 1).val
  let c3_i32 : BitVec 32 := 3#32
  let v9 : BitVec 1 := Scalar.cmpi .eq arg1 c3_i32
  let v10 : BitVec 1 := Scalar.andi v8 v9
  let v11 : BitVec 32 := Scalar.extui v10
  let c0_i32_6 : BitVec 32 := 0#32
  let v12 : BitVec 1 := Scalar.cmpi .ne v11 c0_i32_6
  v12

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4x1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  natLt_1_32 : 1 < 32
  shapeCasts_S1024x1024_S256x4x1024 : S1024x1024.ShapeCasts S256x4x1024
  reduces_S256x4x1024_S256x1024 : S256x4x1024.Reduces [1] S256x1024
  shapeCasts_S256x1024_S256x256x4 : S256x1024.ShapeCasts S256x256x4
  reduces_S256x256x4_S256x256 : S256x256x4.Reduces [2] S256x256
  h_S1x1x256x256 : 0 < S1x1x256x256.numel
  shapeCasts_S1x1x256x256_S256x256 : S1x1x256x256.ShapeCasts S256x256
  shapeCasts_S256x256_S1x1x256x256 : S256x256.ShapeCasts S1x1x256x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S16x16x64x16 : S256x1024.ShapeCasts S16x16x64x16
  transposes_S16x16x64x16_p1_3_0_2_S16x16x16x64 : S16x16x64x16.Transposes [1, 3, 0, 2] S16x16x16x64
  shapeCasts_S16x16x16x64_S256x1024 : S16x16x16x64.ShapeCasts S256x1024
  shapeCasts_S256x256_S16x16x16x16 : S256x256.ShapeCasts S16x16x16x16
  transposes_S16x16x16x16_p1_3_0_2_S16x16x16x16 : S16x16x16x16.Transposes [1, 3, 0, 2] S16x16x16x16
  shapeCasts_S16x16x16x16_S256x256 : S16x16x16x16.ShapeCasts S256x256
  bitsLt_bf16_f32 : FTy.bits .bf16 < FTy.bits .f32
  h_S1x1x1024x256 : 0 < S1x1x1024x256.numel
  shapeCasts_S1x1x1024x256_S1024x256 : S1x1x1024x256.ShapeCasts S1024x256
  reduces_S1024x256_S1024 : S1024x256.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  dot_S256x1024_S256x256_S1024x256_0_0_1_1_n_n_wf : DotDims.WF S256x1024 S256x256 S1024x256 [0] [0] [1] [1] [] []
  hrank0 : 0 < grid0.rank
  k0_t1_ok : k0_t1_loop.OK
  k0_off1_inb : ∀ k0_t1 : Fin k0_t1_loop.trips, ∀ a, (k0_off1 k0_t1) a + S1x1x256x256.size a ≤ S1x4x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x1024.size a
  hwx0_0 : ∀ i : grid0.Coords, EltTy.bits .i32 = 32 ∨ (Rect.block (s := S8x1024x1024) S1x1024x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x256x256.size a ≤ S8x4x256x256.size a
  hwx0_1 : ∀ i : grid0.Coords, EltTy.bits .f32 = 32 ∨ (Rect.block (s := S8x4x256x256) S1x4x256x256.size (cc0_transform_1 i) (hinb0_1 i)).WholeWords (EltTy.packing .f32)
  hrank1 : 0 < grid1.rank
  k1_t1_ok : k1_t1_loop.OK
  k1_off1_inb : ∀ k1_t1 : Fin k1_t1_loop.trips, ∀ a, (k1_off1 k1_t1) a + S1x1x256x256.size a ≤ S1x4x256x256.size a
  k1_off2_inb : ∀ k1_t1 : Fin k1_t1_loop.trips, ∀ a, (k1_off2 k1_t1) a + S1x1x1024x256.size a ≤ S1x4x1024x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x1024x1024.size a
  hwx1_0 : ∀ i : grid1.Coords, EltTy.bits .i32 = 32 ∨ (Rect.block (s := S8x1024x1024) S1x256x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4x256x256.size a ≤ S8x4x256x256.size a
  hwx1_1 : ∀ i : grid1.Coords, EltTy.bits .f32 = 32 ∨ (Rect.block (s := S8x4x256x256) S1x4x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4x1024x256.size a ≤ S8x4x4096x256.size a
  hwx1_2 : ∀ i : grid1.Coords, EltTy.bits .f32 = 32 ∨ (Rect.block (s := S8x4x4096x256) S1x4x1024x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S256x1024_S256x256_S1024x256_0_0_1_1_n_n : DotDims S256x1024 S256x256 S1024x256 where
  lhsContracting := [0]
  rhsContracting := [0]
  lhsNonContracting := [1]
  rhsNonContracting := [1]
  lhsBatch := []
  rhsBatch := []
  wf := dot_S256x1024_S256x256_S1024x256_0_0_1_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x4x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x4x1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x4x1024x1024 : Shape := ⟨4, ![8, 4, 1024, 1024]⟩
abbrev S8x1024x1024 : Shape := ⟨3, ![8, 1024, 1024]⟩
abbrev S8x4x4096x256 : Shape := ⟨4, ![8, 4, 4096, 256]⟩
abbrev S_ : Shape := ⟨0, ![]⟩
abbrev S8x1x1024x1024 : Shape := ⟨4, ![8, 1, 1024, 1024]⟩
abbrev S4 : Shape := ⟨1, ![4]⟩
abbrev S1x4x1x1 : Shape := ⟨4, ![1, 4, 1, 1]⟩
abbrev S8x4x256x4x256x4 : Shape := ⟨6, ![8, 4, 256, 4, 256, 4]⟩
abbrev S8x4x256x256 : Shape := ⟨4, ![8, 4, 256, 256]⟩
abbrev S8x4x64x16x64x16 : Shape := ⟨6, ![8, 4, 64, 16, 64, 16]⟩
abbrev S8x4x16x16x64x64 : Shape := ⟨6, ![8, 4, 16, 16, 64, 64]⟩
abbrev S8x4x256x4096 : Shape := ⟨4, ![8, 4, 256, 4096]⟩
abbrev S8x4x16x16x16x16 : Shape := ⟨6, ![8, 4, 16, 16, 16, 16]⟩

abbrev nBuf : Space → Nat
  | .hbm => 46
  | .vmem => 0
  | .smem => 0
  | _ => 0

abbrev bufTy : (tb : Table) → Fin (tcTables nBuf tb) → BufTy
  | .hbm, ⟨0, _⟩ => ⟨S8x4x1024x1024, .f32⟩
  | .hbm, ⟨1, _⟩ => ⟨S8x1024x1024, .i32⟩
  | .hbm, ⟨2, _⟩ => ⟨S8x4x4096x256, .f32⟩
  | .hbm, ⟨3, _⟩ => ⟨S_, .f32⟩
  | .hbm, ⟨4, _⟩ => ⟨S8x1024x1024, .f32⟩
  | .hbm, ⟨5, _⟩ => ⟨S_, .f32⟩
  | .hbm, ⟨6, _⟩ => ⟨S8x1024x1024, .f32⟩
  | .hbm, ⟨7, _⟩ => ⟨S8x1024x1024, .f32⟩
  | .hbm, ⟨8, _⟩ => ⟨S8x1x1024x1024, .f32⟩
  | .hbm, ⟨9, _⟩ => ⟨S8x4x1024x1024, .f32⟩
  | .hbm, ⟨10, _⟩ => ⟨S8x4x1024x1024, .f32⟩
  | .hbm, ⟨11, _⟩ => ⟨S8x4x1024x1024, .f32⟩
  | .hbm, ⟨12, _⟩ => ⟨S_, .f32⟩
  | .hbm, ⟨13, _⟩ => ⟨S8x1024x1024, .f32⟩
  | .hbm, ⟨14, _⟩ => ⟨S8x1x1024x1024, .f32⟩
  | .hbm, ⟨15, _⟩ => ⟨S8x4x1024x1024, .f32⟩
  | .hbm, ⟨16, _⟩ => ⟨S8x4x1024x1024, .f32⟩
  | .hbm, ⟨17, _⟩ => ⟨S8x1x1024x1024, .i32⟩
  | .hbm, ⟨18, _⟩ => ⟨S4, .i32⟩
  | .hbm, ⟨19, _⟩ => ⟨S1x4x1x1, .i32⟩
  | .hbm, ⟨20, _⟩ => ⟨S8x4x1024x1024, .i32⟩
  | .hbm, ⟨21, _⟩ => ⟨S8x4x1024x1024, .i32⟩
  | .hbm, ⟨22, _⟩ => ⟨S8x4x1024x1024, .i1⟩
  | .hbm, ⟨23, _⟩ => ⟨S8x4x1024x1024, .f32⟩
  | .hbm, ⟨24, _⟩ => ⟨S8x4x256x4x256x4, .f32⟩
  | .hbm, ⟨25, _⟩ => ⟨S_, .f32⟩
  | .hbm, ⟨26, _⟩ => ⟨S8x4x256x256, .f32⟩
  | .hbm, ⟨27, _⟩ => ⟨S_, .f32⟩
  | .hbm, ⟨28, _⟩ => ⟨S8x4x256x256, .f32⟩
  | .hbm, ⟨29, _⟩ => ⟨S8x4x256x256, .f32⟩
  | .hbm, ⟨30, _⟩ => ⟨S8x4x64x16x64x16, .f32⟩
  | .hbm, ⟨31, _⟩ => ⟨S8x4x16x16x64x64, .f32⟩
  | .hbm, ⟨32, _⟩ => ⟨S8x4x256x4096, .f32⟩
  | .hbm, ⟨33, _⟩ => ⟨S8x4x16x16x16x16, .f32⟩
  | .hbm, ⟨34, _⟩ => ⟨S8x4x16x16x16x16, .f32⟩
  | .hbm, ⟨35, _⟩ => ⟨S8x4x256x256, .f32⟩
  | .hbm, ⟨36, _⟩ => ⟨S8x4x4096x256, .f32⟩
  | .hbm, ⟨37, _⟩ => ⟨S_, .f32⟩
  | .hbm, ⟨38, _⟩ => ⟨S8x4x4096x256, .f32⟩
  | .hbm, ⟨39, _⟩ => ⟨S8x4x4096x256, .f32⟩
  | .hbm, ⟨40, _⟩ => ⟨S8x4x4096x256, .f32⟩
  | .hbm, ⟨41, _⟩ => ⟨S8x4x4096x256, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S8x4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  reducesTo_S8x4x1024x1024_S8x1024x1024_d1 : S8x4x1024x1024.ReducesTo [1] S8x1024x1024
  h_S_ : 0 < S_.numel
  bcast_S_S8x1024x1024 : S_.BroadcastsInDim S8x1024x1024 (![] : Fin 0 → Fin S8x1024x1024.rank)
  bcast_S8x1024x1024_S8x1x1024x1024_0_2_3 : S8x1024x1024.BroadcastsInDim S8x1x1024x1024 (![0, 2, 3] : Fin 3 → Fin S8x1x1024x1024.rank)
  bcast_S8x1x1024x1024_S8x4x1024x1024_0_1_2_3 : S8x1x1024x1024.BroadcastsInDim S8x4x1024x1024 (![0, 1, 2, 3] : Fin 4 → Fin S8x4x1024x1024.rank)
  bcast_S4_S1x4x1x1_1 : S4.BroadcastsInDim S1x4x1x1 (![1] : Fin 1 → Fin S1x4x1x1.rank)
  bcast_S1x4x1x1_S8x4x1024x1024_0_1_2_3 : S1x4x1x1.BroadcastsInDim S8x4x1024x1024 (![0, 1, 2, 3] : Fin 4 → Fin S8x4x1024x1024.rank)
  shapeCasts_S8x4x1024x1024_S8x4x256x4x256x4 : S8x4x1024x1024.ShapeCasts S8x4x256x4x256x4
  reducesTo_S8x4x256x4x256x4_S8x4x256x256_d3_5 : S8x4x256x4x256x4.ReducesTo [3, 5] S8x4x256x256
  bcast_S_S8x4x256x256 : S_.BroadcastsInDim S8x4x256x256 (![] : Fin 0 → Fin S8x4x256x256.rank)
  shapeCasts_S8x4x1024x1024_S8x4x64x16x64x16 : S8x4x1024x1024.ShapeCasts S8x4x64x16x64x16
  transposes_S8x4x64x16x64x16_S8x4x16x16x64x64_0_1_3_5_2_4 : S8x4x64x16x64x16.Transposes [0, 1, 3, 5, 2, 4] S8x4x16x16x64x64
  shapeCasts_S8x4x16x16x64x64_S8x4x256x4096 : S8x4x16x16x64x64.ShapeCasts S8x4x256x4096
  shapeCasts_S8x4x256x256_S8x4x16x16x16x16 : S8x4x256x256.ShapeCasts S8x4x16x16x16x16
  transposes_S8x4x16x16x16x16_S8x4x16x16x16x16_0_1_3_5_2_4 : S8x4x16x16x16x16.Transposes [0, 1, 3, 5, 2, 4] S8x4x16x16x16x16
  shapeCasts_S8x4x16x16x16x16_S8x4x256x256 : S8x4x16x16x16x16.ShapeCasts S8x4x256x256
  bcast_S_S8x4x4096x256 : S_.BroadcastsInDim S8x4x4096x256 (![] : Fin 0 → Fin S8x4x4096x256.rank)
  reducesTo_S8x4x4096x256_S_d0_1_2_3 : S8x4x4096x256.ReducesTo [0, 1, 2, 3] S_
  dot_S8x4x256x4096_S8x4x256x256_S8x4x4096x256_2_2_3_3_01_01_wf : DotDims.WF S8x4x256x4096 S8x4x256x256 S8x4x4096x256 [2] [2] [3] [3] [0, 1] [0, 1]

variable [Facts₀]

def dot_S8x4x256x4096_S8x4x256x256_S8x4x4096x256_2_2_3_3_01_01 : DotDims S8x4x256x4096 S8x4x256x256 S8x4x4096x256 where
  lhsContracting := [2]
  rhsContracting := [2]
  lhsNonContracting := [3]
  rhsNonContracting := [3]
  lhsBatch := [0, 1]
  rhsBatch := [0, 1]
  wf := dot_S8x4x256x4096_S8x4x256x256_S8x4x4096x256_2_2_3_3_01_01_wf

class Facts : Prop extends Facts₀ where

variable [Facts]
-- ==== Proof.K.Run0.lean ====
/-
  The pooling kernel's body, run once on whole staging buffers: it loads the label block and, for each of the four
  classes in turn, stores that class's pooled indicator into the class's slab of the output block. What the four
  stores leave in the output block is the run's witness (a list of pieces, last first).
-/
import proofs.«167937_j47399259079182_2_alg».proof.Proof.Gen.Kernel.Launch
import proofs.«167937_j47399259079182_2_alg».proof.Proof.Gen.Kernel.Skeleton
import proofs.«167937_j47399259079182_2_alg».proof.Proof.Gen.Kernel.Points
import proofs.«167937_j47399259079182_2_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pooling kernel on whole staging buffers, the label block at `x0` and the output block at anything: it runs to
    its return, the label block as it was and the output block with the four class slabs written. -/
noncomputable def kernelRun0 (c : Dev nD) (i : grid0.Coords) (arg1 : Memref sig .tc .vmem S1x1024x1024 .i32) (harg1 : arg1.IsWhole) (arg2 : Memref sig .tc .vmem S1x4x256x256 .f32) (harg2 : arg2.IsWhole)
    (x0 : Vec F S1x1024x1024 .i32) :
    { L1 : List (View.Piece (Elt F) S1x4x256x256 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__pool_kernel i arg1 harg1 arg2 harg2) K } := by
  refine ⟨?_, fun E K => ?run⟩
  case run =>
    simp only [cc0__pool_kernel_eq_skeleton]; unfold cc0__pool_kernel_skel
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

end Cert.Kernel.Hand

end
-- ==== Proof.K.Shared.lean ====
/-
  What the runs of the two kernels share: each window's block at a grid point read off its array as the call finds it,
  the two conditions of the second kernel's body decided over its 8 × 4 grid (the accumulator is cleared at the first
  point only, the mean is written out at the last point only), where the output window is idle, and the names of the
  staging buffers, the scratch accumulator and the call's invariant.
-/
import proofs.«167937_j47399259079182_2_alg».proof.Proof.K.Run0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t` of the first call, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The label window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window `w`'s block at point `t` of the second call, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not (the pooled map's block
    is fetched once per image and stays while the band index moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The second kernel's two conditions -/

/-- "This is the first grid point" as the body computes it. -/
abbrev cond1_0 (i : grid1.Coords) : Prop :=
  let arg0 : BitVec 32 := BitVec.ofNat 32 (i 0).val
  let arg1 : BitVec 32 := BitVec.ofNat 32 (i 1).val
  let v0 : BitVec 1 := Scalar.cmpi .eq arg0 0#32
  let v1 : BitVec 1 := Scalar.cmpi .eq arg1 0#32
  let v2 : BitVec 1 := Scalar.andi v0 v1
  let v3 : BitVec 32 := Scalar.extui v2
  let v4 : BitVec 1 := Scalar.cmpi .ne v3 0#32
  v4 = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- "This is the last grid point" as the body computes it. -/
abbrev cond1_1 (i : grid1.Coords) : Prop := k1_cond2 i = 1#1
/-- It holds at point 31 only. -/
theorem hcond1_1 : ∀ t : Fin cfg1.N, cond1_1 (grid1.coords t) ↔ t.val = 31 :=
  (by decide +kernel : ∀ t : Fin grid1.N, cond1_1 (grid1.coords t) ↔ t.val = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last point the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last point it is live. -/
theorem liveAt1_3 : ∀ t : Fin cfg1.N, cond1_1 (grid1.coords t) → cfg1.idle 3 (grid1.coords t) = false := by decide +kernel

/-! ## The staging buffers and the scratch accumulator, by name -/

abbrev VO0_1 : View sig .tc .vmem S1x4x256x256 .f32 := (Memref.whole cc0_stg1_0 : Memref sig .tc .vmem S1x4x256x256 .f32).view
abbrev ms0_0 (t : Fin cfg0.N) : Memref sig .tc .vmem S1x1024x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x256x256 .f32 := win0_1.stage (cfg0.slots t 1)
abbrev hs0_1 (t : Fin cfg0.N) : (ms0_1 t).IsWhole := hstage0_1 ((cfg0.slots t 1).cast nbuf0_1)

abbrev VO1_3 : View sig .tc .vmem S1x1 .f32 := (Memref.whole cc1_stg3_0 : Memref sig .tc .vmem S1x1 .f32).view
abbrev ms1_0 (t : Fin cfg1.N) : Memref sig .tc .vmem S1x256x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4x256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4x1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The scratch accumulator: a whole buffer of the kernel's own. -/
abbrev scM1_0 : Memref sig .tc .vmem S1x1 .f32 := Memref.whole cc1_scratch0
abbrev VS1_0 : View sig .tc .vmem S1x1 .f32 := scM1_0.view

/-- The second call's invariant as the launch hands it over: the first call's four staging buffers and the scratch
    accumulator each whole at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.K.Reg0.lean ====
/-
  The first call (pooling) as a pipeline: what each point leaves in the output block (the run's four class slabs,
  which tile the block), the call's proof data at any entry contents, and the body obligation at every grid point.
-/
import proofs.«167937_j47399259079182_2_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- The four class slabs the run stores tile the output block, so they cover it. -/
theorem cover0_1 (c : Dev nD) (i : grid0.Coords) (arg1 : Memref sig .tc .vmem S1x1024x1024 .i32) (harg1 : arg1.IsWhole) (arg2 : Memref sig .tc .vmem S1x4x256x256 .f32) (harg2 : arg2.IsWhole)
    (x0 : Vec F S1x1024x1024 .i32) (y : S1x4x256x256.Idx) :
    ∃ pc ∈ (kernelRun0 c i arg1 harg1 arg2 harg2 x0).1, y ∈ pc.1.set :=
  View.cover_of_tiledL (kernelRun0 c i arg1 harg1 arg2 harg2 x0).1 S1x1x256x256.size (by sl_kernel_rfl) y

/-- What the run leaves in the output block: its pieces read back. -/
def out0_1 (c : Dev nD) (i : grid0.Coords) (arg1 : Memref sig .tc .vmem S1x1024x1024 .i32) (harg1 : arg1.IsWhole) (arg2 : Memref sig .tc .vmem S1x4x256x256 .f32) (harg2 : arg2.IsWhole)
    (x0 : Vec F S1x1024x1024 .i32) : Vec F S1x4x256x256 .f32 :=
  VO0_1.read (Elt F) (VO0_1.writes (Elt F) VO0_1.junk (kernelRun0 c i arg1 harg1 arg2 harg2 x0).1)

/-- The output block after point `t`. -/
def outsAt0 (c : Dev nD) (t : Fin cfg0.N) : Vec F S1x4x256x256 .f32 :=
  out0_1 c (grid0.coords t) (ms0_0 t) (hs0_0 t) (ms0_1 t) (hs0_1 t) (iblk0 V c 0 t)

/-- The first call's proof data: its arrays as it finds them; after point `t` the label buffer at its block and the
    output buffer at `outsAt0`; the invariant untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outsAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = outsAt0 V c t := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

/-- The body at any point: the label buffer holds its block, so the run applies; the invariant passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  unfold outsAt0
  unfold out0_1
  iintro ⟨HΦ, Ho, ⟨%d0, H0⟩, ⟨%d1, H1⟩⟩
  iapply ((kernelRun0 c (grid0.coords t) _ _ _ _ (iblk0 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0_1 c _ _ _ _ _ _)

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Run1A.lean ====
/-
  The second kernel's body at the first grid point: the accumulator is cleared, then each class's band sum is added; the output block is not touched. The pieces the run leaves in the accumulator (and in the output block) are its witness.
-/
import proofs.«167937_j47399259079182_2_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i)
    (x0 : Vec F S1x256x1024 .i32) (x1 : Vec F S1x4x256x256 .f32) (x2 : Vec F S1x4x1024x256 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__main_kernel i arg2 harg2 arg3 harg3 arg4 harg4 arg5 harg5 arg6 harg6) K } := by
  refine ⟨[], ?_, fun xi3 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Run1B.lean ====
/-
  The second kernel's body at a grid point that is neither first nor last: each class's band sum is added to the accumulator the point before left; the output block is not touched. The pieces the run leaves in the accumulator (and in the output block) are its witness.
-/
import proofs.«167937_j47399259079182_2_alg».proof.Proof.K.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i)
    (x0 : Vec F S1x256x1024 .i32) (x1 : Vec F S1x4x256x256 .f32) (x2 : Vec F S1x4x1024x256 .f32) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__main_kernel i arg2 harg2 arg3 harg3 arg4 harg4 arg5 harg5 arg6 harg6) K } := by
  refine ⟨[], ?_, fun xi3 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Run1C.lean ====
/-
  The second kernel's body at the last grid point: each class's band sum is added to the accumulator, and the accumulator times the reciprocal of the entry count is stored into the output block. The pieces the run leaves in the accumulator (and in the output block) are its witness.
-/
import proofs.«167937_j47399259079182_2_alg».proof.Proof.K.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i)
    (x0 : Vec F S1x256x1024 .i32) (x1 : Vec F S1x4x256x256 .f32) (x2 : Vec F S1x4x1024x256 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__main_kernel i arg2 harg2 arg3 harg3 arg4 harg4 arg5 harg5 arg6 harg6) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.Kernel.Hand

end
-- ==== Proof.K.Reg1.lean ====
/-
  The second call (the loss) as a pipeline. Per case of its two conditions: what the run leaves in the accumulator
  (and, at the last point, in the output block). Point by point: the accumulator after point `n` is the case's
  contents over what point `n - 1` left. The call's invariant carries the accumulator at that value between points;
  the proof data, and the body obligation at every grid point.
-/
import proofs.«167937_j47399259079182_2_alg».proof.Proof.K.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Case A: nothing is stored into the output block: a placeholder nothing consults. -/
def out1_A_3 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i)
    (x0 : Vec F S1x256x1024 .i32) (x1 : Vec F S1x4x256x256 .f32) (x2 : Vec F S1x4x1024x256 .f32) : Vec F S1x1 .f32 :=
  VO1_3.read (Elt F) (VO1_3.writes (Elt F) VO1_3.junk (kernelRun1_A c i arg2 harg2 arg3 harg3 arg4 harg4 arg5 harg5 arg6 harg6 hc0 hc1 x0 x1 x2).1)

/-- Case A: the stores into the accumulator cover it. -/
theorem scover1_A_0 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i)
    (x0 : Vec F S1x256x1024 .i32) (x1 : Vec F S1x4x256x256 .f32) (x2 : Vec F S1x4x1024x256 .f32) (y : S1x1.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x1.size (by sl_kernel_rfl) y

/-- What case A leaves in the accumulator: its pieces read back. -/
def sout1_A_0 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i)
    (x0 : Vec F S1x256x1024 .i32) (x1 : Vec F S1x4x256x256 .f32) (x2 : Vec F S1x4x1024x256 .f32) : Vec F S1x1 .f32 :=
  VS1_0.read (Elt F) (VS1_0.writes (Elt F) VS1_0.junk (kernelRun1_A c i arg2 harg2 arg3 harg3 arg4 harg4 arg5 harg5 arg6 harg6 hc0 hc1 x0 x1 x2).2.1)

/-- Case B: nothing is stored into the output block: a placeholder nothing consults. -/
def out1_B_3 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i)
    (x0 : Vec F S1x256x1024 .i32) (x1 : Vec F S1x4x256x256 .f32) (x2 : Vec F S1x4x1024x256 .f32) (xs0 : Vec F S1x1 .f32) : Vec F S1x1 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B: the stores into the accumulator cover it. -/
theorem scover1_B_0 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i)
    (x0 : Vec F S1x256x1024 .i32) (x1 : Vec F S1x4x256x256 .f32) (x2 : Vec F S1x4x1024x256 .f32) (xs0 : Vec F S1x1 .f32) (y : S1x1.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x1.size (by sl_kernel_rfl) y

/-- What case B leaves in the accumulator: its pieces read back. -/
def sout1_B_0 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i)
    (x0 : Vec F S1x256x1024 .i32) (x1 : Vec F S1x4x256x256 .f32) (x2 : Vec F S1x4x1024x256 .f32) (xs0 : Vec F S1x1 .f32) : Vec F S1x1 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C: the one store into the output block covers it. -/
theorem cover1_C_3 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i)
    (x0 : Vec F S1x256x1024 .i32) (x1 : Vec F S1x4x256x256 .f32) (x2 : Vec F S1x4x1024x256 .f32) (xs0 : Vec F S1x1 .f32) (y : S1x1.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x1.size (by sl_kernel_rfl) y
def out1_C_3 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i)
    (x0 : Vec F S1x256x1024 .i32) (x1 : Vec F S1x4x256x256 .f32) (x2 : Vec F S1x4x1024x256 .f32) (xs0 : Vec F S1x1 .f32) : Vec F S1x1 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C: the stores into the accumulator cover it. -/
theorem scover1_C_0 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i)
    (x0 : Vec F S1x256x1024 .i32) (x1 : Vec F S1x4x256x256 .f32) (x2 : Vec F S1x4x1024x256 .f32) (xs0 : Vec F S1x1 .f32) (y : S1x1.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1x1.size (by sl_kernel_rfl) y

/-- What case C leaves in the accumulator: its pieces read back. -/
def sout1_C_0 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i)
    (x0 : Vec F S1x256x1024 .i32) (x1 : Vec F S1x4x256x256 .f32) (x2 : Vec F S1x4x1024x256 .f32) (xs0 : Vec F S1x1 .f32) : Vec F S1x1 .f32 :=
  VS1_0.read (Elt F) (VS1_0.writes (Elt F) VS1_0.junk (kernelRun1_C c i arg2 harg2 arg3 harg3 arg4 harg4 arg5 harg5 arg6 harg6 hc0 hc1 x0 x1 x2 xs0).2.1)

/-- THE ACCUMULATION: the output block's and the accumulator's contents after the body at position `n`. -/
def outsAt1 (c : Dev nD) : (n : ℕ) → n < cfg1.N → Vec F S1x1 .f32 × Vec F S1x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h1 : n + 1 = 31 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val = 0) (h1 : ¬t.val = 31) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
      sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 31) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 31) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-- The scoped buffers the second call does not stage, with the accumulator at `P`: the first call's four staging
    buffers at anything. -/
abbrev Oth (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ P)

theorem PhiA1_eq' (c : Dev nD) :
    (Pipeline.ΦA spec1 c : sProp 𝕄) = iprop(Oth c (iprop(∃ d, owns (c : Thread nD τ) scM1_0 fullShare d)) ∗ (∃ r, prngReg c r)) := PhiA1_eq c

/-- The call's invariant before position `n`: at the start what the launch hands over; afterwards the accumulator
    at what the point before left, the rest at anything. -/
def PhiS1 (c : Dev nD) : (n : ℕ) → n ≤ cfg1.N → sProp 𝕄
  | 0, _ => Pipeline.ΦA spec1 c
  | n + 1, hn => iprop(Oth c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(Oth c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(Oth c (owns (c : Thread nD τ) scM1_0 fullShare ((outsAt1 V c (n - 1) (by omega)).2)) ∗ (∃ r, prngReg c r)) := by
  cases n with
  | zero => exact absurd rfl hz
  | succ n => rfl

/-- The second call's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the input buffers hold their blocks; the point's position says which case it is in; the
    invariant hands over the accumulator at what the point before left (at anything at the first point) and takes
    it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val = 0
  · have h1 : ¬t.val = 31 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A_0; (try dsimp only)
    rw [PhiS1_castSucc V c t, PhiS1_zero V c _ _ h0, PhiA1_eq']
    iintro ⟨⟨⟨Hs0, Hs1, Hs2, Hs3, HS0⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [Hs0 Hs1 Hs2 Hs3 HS0 Hg]
    · isplitl [Hs0 Hs1 Hs2 Hs3 HS0]
      · isplitl [Hs0]; · iexact Hs0
        isplitl [Hs1]; · iexact Hs1
        isplitl [Hs2]; · iexact Hs2
        isplitl [Hs3]; · iexact Hs3
        unfold owns; iexists _; isplitr
        swap; · iexact HS0
        ipureintro; exact View.read_writes_of_cover _ _ _ _ _ (scover1_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · by_cases h1 : t.val = 31
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      rw [PhiS1_castSucc V c t, PhiS1_pos V c _ _ h0]
      iintro ⟨⟨⟨Hs0, Hs1, Hs2, Hs3, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hs0 Hs1 Hs2 Hs3 HS0 Hg]
      · isplitl [Hs0 Hs1 Hs2 Hs3 HS0]
        · isplitl [Hs0]; · iexact Hs0
          isplitl [Hs1]; · iexact Hs1
          isplitl [Hs2]; · iexact Hs2
          isplitl [Hs3]; · iexact Hs3
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      rw [PhiS1_castSucc V c t, PhiS1_pos V c _ _ h0]
      iintro ⟨⟨⟨Hs0, Hs1, Hs2, Hs3, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hs0 Hs1 Hs2 Hs3 HS0 Hg]
      · isplitl [Hs0 Hs1 Hs2 Hs3 HS0]
        · isplitl [Hs0]; · iexact Hs0
          isplitl [Hs1]; · iexact Hs1
          isplitl [Hs2]; · iexact Hs2
          isplitl [Hs3]; · iexact Hs3
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back, the accumulator's value forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq']
  iintro ⟨⟨Hs0, Hs1, Hs2, Hs3, HS0⟩, Hg⟩
  isplitl [Hs0 Hs1 Hs2 Hs3 HS0]
  · isplitl [Hs0]; · iexact Hs0
    isplitl [Hs1]; · iexact Hs1
    isplitl [Hs2]; · iexact Hs2
    isplitl [Hs3]; · iexact Hs3
    iexists _; iexact HS0
  iexact Hg

end Region1

end Cert.Kernel.Hand

end
-- ==== Proof.K.Main.lean ====
/-
  The whole program as three segments — the pooling call, the loss call, the final reshape of the 1 × 1 result to a
  scalar — with the buffers' contents named at every boundary, and its run: every weakly fair execution terminates
  with every unscoped buffer at the last boundary's contents. The arguments reach the end as launched: no segment
  writes one.
-/
import proofs.«167937_j47399259079182_2_alg».proof.Proof.K.Reg0
import proofs.«167937_j47399259079182_2_alg».proof.Proof.K.Reg1
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev Wa : Dev nD → Valuation τ sig (Elt F) := fun c b => (s₀ m ρ).mem ((c : Dev nD), b)
abbrev Va : (c : Dev nD) → (b : Ref sig .tc) → Buf (Elt F) ((c : Thread nD τ).loc b) := fun c b => Wa m ρ c b
/-- After the pooling call: its arrays at what its write-backs leave, the rest as entered. -/
def Wb (c : Dev nD) : Valuation τ sig (Elt F) :=
  Pipeline.withArrays spec0 c (Wa m ρ c) fun w => (dat0 (Va m ρ) c).arrAt w cfg0.N
theorem Wb_arr (c : Dev nD) (w : Fin cfg0.W) :
    Wb m ρ c (Proc.devRef .tc (Pipeline.arrRef spec0 w)) = (dat0 (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
abbrev Vb : (c : Dev nD) → (b : Ref sig .tc) → Buf (Elt F) ((c : Thread nD τ).loc b) := fun c b => Wb m ρ c b
theorem hF0 (c : Dev nD) (w : Fin cfg0.W) : (dat0 (Va m ρ) c).arrAt w cfg0.N = Vb m ρ c (Pipeline.arrRef spec0 w) :=
  (Wb_arr m ρ c w).symm
theorem hrest0 (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- After the loss call. -/
def Wc (c : Dev nD) : Valuation τ sig (Elt F) :=
  Pipeline.withArrays spec1 c (Wb m ρ c) fun w => (dat1 (Vb m ρ) c).arrAt w cfg1.N
theorem Wc_arr (c : Dev nD) (w : Fin cfg1.W) :
    Wc m ρ c (Proc.devRef .tc (Pipeline.arrRef spec1 w)) = (dat1 (Vb m ρ) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m ρ c (Proc.devRef .tc b) = Wb m ρ c (Proc.devRef .tc b) := by
  unfold Wc; exact Pipeline.withArrays_of_ne spec1 c _ _ b hb
abbrev Vc : (c : Dev nD) → (b : Ref sig .tc) → Buf (Elt F) ((c : Thread nD τ).loc b) := fun c b => Wc m ρ c b
theorem hF1 (c : Dev nD) (w : Fin cfg1.W) : (dat1 (Vb m ρ) c).arrAt w cfg1.N = Vc m ρ c (Pipeline.arrRef spec1 w) :=
  (Wc_arr m ρ c w).symm
theorem hrest1 (c : Dev nD) : ∀ b, b ∉ Finset.univ.image (Pipeline.arrRef spec1) → Vc m ρ c b = Vb m ρ c b :=
  fun b hb => Wc_of_ne m ρ c b fun w e => hb (Finset.mem_image.mpr ⟨w, Finset.mem_univ _, e⟩)

/-- After the final reshape. -/
abbrev Wd : Dev nD → Valuation τ sig (Elt F) := fun c => StableHlo.after hostOps2 (Wc m ρ c)

/-! ### The arguments end as launched -/

theorem Wd_main_arg0 (c : Dev nD) : Wd m ρ c (Proc.devRef .tc main_arg0) = m ((c : Thread nD τ).loc main_arg0) :=
  calc Wd m ρ c (Proc.devRef .tc main_arg0)
    _ = Wc m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.reshape_writes, Finset.mem_singleton]
          exact StableHlo.devRef_ne_of_ne (by decide)))
    _ = Wb m ρ c (Proc.devRef .tc main_arg0) := Wc_of_ne m ρ c main_arg0 (by decide)
    _ = Wa m ρ c (Proc.devRef .tc main_arg0) := Wb_of_ne m ρ c main_arg0 (by decide)
    _ = m ((c : Thread nD τ).loc main_arg0) := rfl

theorem Wd_main_arg1 (c : Dev nD) : Wd m ρ c (Proc.devRef .tc main_arg1) = m ((c : Thread nD τ).loc main_arg1) :=
  calc Wd m ρ c (Proc.devRef .tc main_arg1)
    _ = Wc m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.reshape_writes, Finset.mem_singleton]
          exact StableHlo.devRef_ne_of_ne (by decide)))
    _ = Wb m ρ c (Proc.devRef .tc main_arg1) := (Wc_arr m ρ c 0).trans (((dat1 (Vb m ρ) c).arrAt_in 0 rfl _).trans (A_eq1 (Vb m ρ) c 0))
    _ = Wa m ρ c (Proc.devRef .tc main_arg1) := (Wb_arr m ρ c 0).trans (((dat0 (Va m ρ) c).arrAt_in 0 rfl _).trans (A_eq0 (Va m ρ) c 0))
    _ = m ((c : Thread nD τ).loc main_arg1) := rfl

theorem Wd_main_arg2 (c : Dev nD) : Wd m ρ c (Proc.devRef .tc main_arg2) = m ((c : Thread nD τ).loc main_arg2) :=
  calc Wd m ρ c (Proc.devRef .tc main_arg2)
    _ = Wc m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.reshape_writes, Finset.mem_singleton]
          exact StableHlo.devRef_ne_of_ne (by decide)))
    _ = Wb m ρ c (Proc.devRef .tc main_arg2) := (Wc_arr m ρ c 2).trans (((dat1 (Vb m ρ) c).arrAt_in 2 rfl _).trans (A_eq1 (Vb m ρ) c 2))
    _ = Wa m ρ c (Proc.devRef .tc main_arg2) := Wb_of_ne m ρ c main_arg2 (by decide)
    _ = m ((c : Thread nD τ).loc main_arg2) := rfl

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (Va m ρ) c
  | ⟨1, _⟩ => fun c => dat1 (Vb m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The second call's invariant as the launch takes it back: the generator register beside the scoped rest. -/
theorem PhiA1_out (c : Dev nD) : (Pipeline.ΦA spec1 c : sProp 𝕄)
    ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

/-! ## The calls as segments -/

set_option backward.isDefEq.respectTransparency.types false in
/-- Call 0 over the thread state: entered with every unscoped buffer at the contents before it, left with the
    call's arrays at what its write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at the contents before it, left with the
    call's arrays at what its write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (Wb m ρ c) ∗ R c)
  post c := iprop(StableHlo.held (c : Thread nD τ) (Pipeline.ucRefs τ sig) (Wc m ρ c) ∗ R c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (Vb m ρ) c).trans (PhiA1_out c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb m ρ c) (Vc m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh' (Wc m ρ)) ]
theorem main_run (c : Dev nD) : main (F := F) c = Pipeline.Seg.run (segs m ρ) := (main_chain c).trans (by chain_rfl)

set_option backward.isDefEq.respectTransparency.types false in
/-- THE RUN: every weakly fair execution of the program terminates, nothing faulting, with every unscoped buffer at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ R c))
    (Tₙ := fun c => iprop(StableHlo.held (c : Thread nD τ) (Pipeline.ucRefs τ sig) (Wd m ρ c) ∗ ∃ r, prngReg c r))
    (hch := ⟨fun _ => .rfl, fun _ => .rfl, fun _ => .rfl, fun c => by
      show iprop(StableHlo.held (c : Thread nD τ) (Pipeline.ucRefs τ sig) (Wd m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd m ρ c) s')
      isplitl [Hh] <;> iassumption)
    (hQ := fun s h => h)

end Cert.Kernel.Hand

end
-- ==== Proof.KI.Run0.lean ====
/-
  The pooling kernel's body, run once on whole staging buffers: it loads the label block and, for each of the four
  classes in turn, stores that class's pooled indicator into the class's slab of the output block. What the four
  stores leave in the output block is the run's witness (a list of pieces, last first).
-/
import proofs.«167937_j47399259079182_2_alg».proof.Proof.Gen.KernelIdeal.Launch
import proofs.«167937_j47399259079182_2_alg».proof.Proof.Gen.KernelIdeal.Skeleton
import proofs.«167937_j47399259079182_2_alg».proof.Proof.Gen.KernelIdeal.Points
import proofs.«167937_j47399259079182_2_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pooling kernel on whole staging buffers, the label block at `x0` and the output block at anything: it runs to
    its return, the label block as it was and the output block with the four class slabs written. -/
noncomputable def kernelRun0 (c : Dev nD) (i : grid0.Coords) (arg1 : Memref sig .tc .vmem S1x1024x1024 .i32) (harg1 : arg1.IsWhole) (arg2 : Memref sig .tc .vmem S1x4x256x256 .f32) (harg2 : arg2.IsWhole)
    (x0 : Vec F S1x1024x1024 .i32) :
    { L1 : List (View.Piece (Elt F) S1x4x256x256 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__pool_kernel i arg1 harg1 arg2 harg2) K } := by
  refine ⟨?_, fun E K => ?run⟩
  case run =>
    simp only [cc0__pool_kernel_eq_skeleton]; unfold cc0__pool_kernel_skel
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

end Cert.KernelIdeal.Hand

end
-- ==== Proof.KI.Shared.lean ====
/-
  What the runs of the two kernels share: each window's block at a grid point read off its array as the call finds it,
  the two conditions of the second kernel's body decided over its 8 × 4 grid (the accumulator is cleared at the first
  point only, the mean is written out at the last point only), where the output window is idle, and the names of the
  staging buffers, the scratch accumulator and the call's invariant.
-/
import proofs.«167937_j47399259079182_2_alg».proof.Proof.KI.Run0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t` of the first call, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The label window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window `w`'s block at point `t` of the second call, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not (the pooled map's block
    is fetched once per image and stays while the band index moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The second kernel's two conditions -/

/-- "This is the first grid point" as the body computes it. -/
abbrev cond1_0 (i : grid1.Coords) : Prop :=
  let arg0 : BitVec 32 := BitVec.ofNat 32 (i 0).val
  let arg1 : BitVec 32 := BitVec.ofNat 32 (i 1).val
  let v0 : BitVec 1 := Scalar.cmpi .eq arg0 0#32
  let v1 : BitVec 1 := Scalar.cmpi .eq arg1 0#32
  let v2 : BitVec 1 := Scalar.andi v0 v1
  let v3 : BitVec 32 := Scalar.extui v2
  let v4 : BitVec 1 := Scalar.cmpi .ne v3 0#32
  v4 = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- "This is the last grid point" as the body computes it. -/
abbrev cond1_1 (i : grid1.Coords) : Prop := k1_cond2 i = 1#1
/-- It holds at point 31 only. -/
theorem hcond1_1 : ∀ t : Fin cfg1.N, cond1_1 (grid1.coords t) ↔ t.val = 31 :=
  (by decide +kernel : ∀ t : Fin grid1.N, cond1_1 (grid1.coords t) ↔ t.val = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last point the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last point it is live. -/
theorem liveAt1_3 : ∀ t : Fin cfg1.N, cond1_1 (grid1.coords t) → cfg1.idle 3 (grid1.coords t) = false := by decide +kernel

/-! ## The staging buffers and the scratch accumulator, by name -/

abbrev VO0_1 : View sig .tc .vmem S1x4x256x256 .f32 := (Memref.whole cc0_stg1_0 : Memref sig .tc .vmem S1x4x256x256 .f32).view
abbrev ms0_0 (t : Fin cfg0.N) : Memref sig .tc .vmem S1x1024x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x256x256 .f32 := win0_1.stage (cfg0.slots t 1)
abbrev hs0_1 (t : Fin cfg0.N) : (ms0_1 t).IsWhole := hstage0_1 ((cfg0.slots t 1).cast nbuf0_1)

abbrev VO1_3 : View sig .tc .vmem S1x1 .f32 := (Memref.whole cc1_stg3_0 : Memref sig .tc .vmem S1x1 .f32).view
abbrev ms1_0 (t : Fin cfg1.N) : Memref sig .tc .vmem S1x256x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4x256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4x1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The scratch accumulator: a whole buffer of the kernel's own. -/
abbrev scM1_0 : Memref sig .tc .vmem S1x1 .f32 := Memref.whole cc1_scratch0
abbrev VS1_0 : View sig .tc .vmem S1x1 .f32 := scM1_0.view

/-- The second call's invariant as the launch hands it over: the first call's four staging buffers and the scratch
    accumulator each whole at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KI.Reg0.lean ====
/-
  The first call (pooling) as a pipeline: what each point leaves in the output block (the run's four class slabs,
  which tile the block), the call's proof data at any entry contents, and the body obligation at every grid point.
-/
import proofs.«167937_j47399259079182_2_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- The four class slabs the run stores tile the output block, so they cover it. -/
theorem cover0_1 (c : Dev nD) (i : grid0.Coords) (arg1 : Memref sig .tc .vmem S1x1024x1024 .i32) (harg1 : arg1.IsWhole) (arg2 : Memref sig .tc .vmem S1x4x256x256 .f32) (harg2 : arg2.IsWhole)
    (x0 : Vec F S1x1024x1024 .i32) (y : S1x4x256x256.Idx) :
    ∃ pc ∈ (kernelRun0 c i arg1 harg1 arg2 harg2 x0).1, y ∈ pc.1.set :=
  View.cover_of_tiledL (kernelRun0 c i arg1 harg1 arg2 harg2 x0).1 S1x1x256x256.size (by sl_kernel_rfl) y

/-- What the run leaves in the output block: its pieces read back. -/
def out0_1 (c : Dev nD) (i : grid0.Coords) (arg1 : Memref sig .tc .vmem S1x1024x1024 .i32) (harg1 : arg1.IsWhole) (arg2 : Memref sig .tc .vmem S1x4x256x256 .f32) (harg2 : arg2.IsWhole)
    (x0 : Vec F S1x1024x1024 .i32) : Vec F S1x4x256x256 .f32 :=
  VO0_1.read (Elt F) (VO0_1.writes (Elt F) VO0_1.junk (kernelRun0 c i arg1 harg1 arg2 harg2 x0).1)

/-- The output block after point `t`. -/
def outsAt0 (c : Dev nD) (t : Fin cfg0.N) : Vec F S1x4x256x256 .f32 :=
  out0_1 c (grid0.coords t) (ms0_0 t) (hs0_0 t) (ms0_1 t) (hs0_1 t) (iblk0 V c 0 t)

/-- The first call's proof data: its arrays as it finds them; after point `t` the label buffer at its block and the
    output buffer at `outsAt0`; the invariant untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outsAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = outsAt0 V c t := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

/-- The body at any point: the label buffer holds its block, so the run applies; the invariant passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  unfold outsAt0
  unfold out0_1
  iintro ⟨HΦ, Ho, ⟨%d0, H0⟩, ⟨%d1, H1⟩⟩
  iapply ((kernelRun0 c (grid0.coords t) _ _ _ _ (iblk0 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0_1 c _ _ _ _ _ _)

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Run1A.lean ====
/-
  The second kernel's body at the first grid point: the accumulator is cleared, then each class's band sum is added; the output block is not touched. The pieces the run leaves in the accumulator (and in the output block) are its witness.
-/
import proofs.«167937_j47399259079182_2_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i)
    (x0 : Vec F S1x256x1024 .i32) (x1 : Vec F S1x4x256x256 .f32) (x2 : Vec F S1x4x1024x256 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__main_kernel i arg2 harg2 arg3 harg3 arg4 harg4 arg5 harg5 arg6 harg6) K } := by
  refine ⟨[], ?_, fun xi3 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Run1B.lean ====
/-
  The second kernel's body at a grid point that is neither first nor last: each class's band sum is added to the accumulator the point before left; the output block is not touched. The pieces the run leaves in the accumulator (and in the output block) are its witness.
-/
import proofs.«167937_j47399259079182_2_alg».proof.Proof.KI.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i)
    (x0 : Vec F S1x256x1024 .i32) (x1 : Vec F S1x4x256x256 .f32) (x2 : Vec F S1x4x1024x256 .f32) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__main_kernel i arg2 harg2 arg3 harg3 arg4 harg4 arg5 harg5 arg6 harg6) K } := by
  refine ⟨[], ?_, fun xi3 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Run1C.lean ====
/-
  The second kernel's body at the last grid point: each class's band sum is added to the accumulator, and the accumulator times the reciprocal of the entry count is stored into the output block. The pieces the run leaves in the accumulator (and in the output block) are its witness.
-/
import proofs.«167937_j47399259079182_2_alg».proof.Proof.KI.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i)
    (x0 : Vec F S1x256x1024 .i32) (x1 : Vec F S1x4x256x256 .f32) (x2 : Vec F S1x4x1024x256 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__main_kernel i arg2 harg2 arg3 harg3 arg4 harg4 arg5 harg5 arg6 harg6) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.KernelIdeal.Hand

end
-- ==== Proof.KI.Reg1.lean ====
/-
  The second call (the loss) as a pipeline. Per case of its two conditions: what the run leaves in the accumulator
  (and, at the last point, in the output block). Point by point: the accumulator after point `n` is the case's
  contents over what point `n - 1` left. The call's invariant carries the accumulator at that value between points;
  the proof data, and the body obligation at every grid point.
-/
import proofs.«167937_j47399259079182_2_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Case A: nothing is stored into the output block: a placeholder nothing consults. -/
def out1_A_3 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i)
    (x0 : Vec F S1x256x1024 .i32) (x1 : Vec F S1x4x256x256 .f32) (x2 : Vec F S1x4x1024x256 .f32) : Vec F S1x1 .f32 :=
  VO1_3.read (Elt F) (VO1_3.writes (Elt F) VO1_3.junk (kernelRun1_A c i arg2 harg2 arg3 harg3 arg4 harg4 arg5 harg5 arg6 harg6 hc0 hc1 x0 x1 x2).1)

/-- Case A: the stores into the accumulator cover it. -/
theorem scover1_A_0 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i)
    (x0 : Vec F S1x256x1024 .i32) (x1 : Vec F S1x4x256x256 .f32) (x2 : Vec F S1x4x1024x256 .f32) (y : S1x1.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x1.size (by sl_kernel_rfl) y

/-- What case A leaves in the accumulator: its pieces read back. -/
def sout1_A_0 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i)
    (x0 : Vec F S1x256x1024 .i32) (x1 : Vec F S1x4x256x256 .f32) (x2 : Vec F S1x4x1024x256 .f32) : Vec F S1x1 .f32 :=
  VS1_0.read (Elt F) (VS1_0.writes (Elt F) VS1_0.junk (kernelRun1_A c i arg2 harg2 arg3 harg3 arg4 harg4 arg5 harg5 arg6 harg6 hc0 hc1 x0 x1 x2).2.1)

/-- Case B: nothing is stored into the output block: a placeholder nothing consults. -/
def out1_B_3 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i)
    (x0 : Vec F S1x256x1024 .i32) (x1 : Vec F S1x4x256x256 .f32) (x2 : Vec F S1x4x1024x256 .f32) (xs0 : Vec F S1x1 .f32) : Vec F S1x1 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B: the stores into the accumulator cover it. -/
theorem scover1_B_0 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i)
    (x0 : Vec F S1x256x1024 .i32) (x1 : Vec F S1x4x256x256 .f32) (x2 : Vec F S1x4x1024x256 .f32) (xs0 : Vec F S1x1 .f32) (y : S1x1.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x1.size (by sl_kernel_rfl) y

/-- What case B leaves in the accumulator: its pieces read back. -/
def sout1_B_0 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i)
    (x0 : Vec F S1x256x1024 .i32) (x1 : Vec F S1x4x256x256 .f32) (x2 : Vec F S1x4x1024x256 .f32) (xs0 : Vec F S1x1 .f32) : Vec F S1x1 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C: the one store into the output block covers it. -/
theorem cover1_C_3 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i)
    (x0 : Vec F S1x256x1024 .i32) (x1 : Vec F S1x4x256x256 .f32) (x2 : Vec F S1x4x1024x256 .f32) (xs0 : Vec F S1x1 .f32) (y : S1x1.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x1.size (by sl_kernel_rfl) y
def out1_C_3 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i)
    (x0 : Vec F S1x256x1024 .i32) (x1 : Vec F S1x4x256x256 .f32) (x2 : Vec F S1x4x1024x256 .f32) (xs0 : Vec F S1x1 .f32) : Vec F S1x1 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C: the stores into the accumulator cover it. -/
theorem scover1_C_0 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i)
    (x0 : Vec F S1x256x1024 .i32) (x1 : Vec F S1x4x256x256 .f32) (x2 : Vec F S1x4x1024x256 .f32) (xs0 : Vec F S1x1 .f32) (y : S1x1.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1x1.size (by sl_kernel_rfl) y

/-- What case C leaves in the accumulator: its pieces read back. -/
def sout1_C_0 (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i)
    (x0 : Vec F S1x256x1024 .i32) (x1 : Vec F S1x4x256x256 .f32) (x2 : Vec F S1x4x1024x256 .f32) (xs0 : Vec F S1x1 .f32) : Vec F S1x1 .f32 :=
  VS1_0.read (Elt F) (VS1_0.writes (Elt F) VS1_0.junk (kernelRun1_C c i arg2 harg2 arg3 harg3 arg4 harg4 arg5 harg5 arg6 harg6 hc0 hc1 x0 x1 x2 xs0).2.1)

/-- THE ACCUMULATION: the output block's and the accumulator's contents after the body at position `n`. -/
def outsAt1 (c : Dev nD) : (n : ℕ) → n < cfg1.N → Vec F S1x1 .f32 × Vec F S1x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h1 : n + 1 = 31 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val = 0) (h1 : ¬t.val = 31) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
      sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 31) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 31) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-- The scoped buffers the second call does not stage, with the accumulator at `P`: the first call's four staging
    buffers at anything. -/
abbrev Oth (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ P)

theorem PhiA1_eq' (c : Dev nD) :
    (Pipeline.ΦA spec1 c : sProp 𝕄) = iprop(Oth c (iprop(∃ d, owns (c : Thread nD τ) scM1_0 fullShare d)) ∗ (∃ r, prngReg c r)) := PhiA1_eq c

/-- The call's invariant before position `n`: at the start what the launch hands over; afterwards the accumulator
    at what the point before left, the rest at anything. -/
def PhiS1 (c : Dev nD) : (n : ℕ) → n ≤ cfg1.N → sProp 𝕄
  | 0, _ => Pipeline.ΦA spec1 c
  | n + 1, hn => iprop(Oth c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(Oth c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(Oth c (owns (c : Thread nD τ) scM1_0 fullShare ((outsAt1 V c (n - 1) (by omega)).2)) ∗ (∃ r, prngReg c r)) := by
  cases n with
  | zero => exact absurd rfl hz
  | succ n => rfl

/-- The second call's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the input buffers hold their blocks; the point's position says which case it is in; the
    invariant hands over the accumulator at what the point before left (at anything at the first point) and takes
    it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val = 0
  · have h1 : ¬t.val = 31 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A_0; (try dsimp only)
    rw [PhiS1_castSucc V c t, PhiS1_zero V c _ _ h0, PhiA1_eq']
    iintro ⟨⟨⟨Hs0, Hs1, Hs2, Hs3, HS0⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [Hs0 Hs1 Hs2 Hs3 HS0 Hg]
    · isplitl [Hs0 Hs1 Hs2 Hs3 HS0]
      · isplitl [Hs0]; · iexact Hs0
        isplitl [Hs1]; · iexact Hs1
        isplitl [Hs2]; · iexact Hs2
        isplitl [Hs3]; · iexact Hs3
        unfold owns; iexists _; isplitr
        swap; · iexact HS0
        ipureintro; exact View.read_writes_of_cover _ _ _ _ _ (scover1_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · by_cases h1 : t.val = 31
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      rw [PhiS1_castSucc V c t, PhiS1_pos V c _ _ h0]
      iintro ⟨⟨⟨Hs0, Hs1, Hs2, Hs3, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hs0 Hs1 Hs2 Hs3 HS0 Hg]
      · isplitl [Hs0 Hs1 Hs2 Hs3 HS0]
        · isplitl [Hs0]; · iexact Hs0
          isplitl [Hs1]; · iexact Hs1
          isplitl [Hs2]; · iexact Hs2
          isplitl [Hs3]; · iexact Hs3
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      rw [PhiS1_castSucc V c t, PhiS1_pos V c _ _ h0]
      iintro ⟨⟨⟨Hs0, Hs1, Hs2, Hs3, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hs0 Hs1 Hs2 Hs3 HS0 Hg]
      · isplitl [Hs0 Hs1 Hs2 Hs3 HS0]
        · isplitl [Hs0]; · iexact Hs0
          isplitl [Hs1]; · iexact Hs1
          isplitl [Hs2]; · iexact Hs2
          isplitl [Hs3]; · iexact Hs3
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back, the accumulator's value forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq']
  iintro ⟨⟨Hs0, Hs1, Hs2, Hs3, HS0⟩, Hg⟩
  isplitl [Hs0 Hs1 Hs2 Hs3 HS0]
  · isplitl [Hs0]; · iexact Hs0
    isplitl [Hs1]; · iexact Hs1
    isplitl [Hs2]; · iexact Hs2
    isplitl [Hs3]; · iexact Hs3
    iexists _; iexact HS0
  iexact Hg

end Region1

end Cert.KernelIdeal.Hand

end
-- ==== Proof.KI.Main.lean ====
/-
  The whole program as three segments — the pooling call, the loss call, the final reshape of the 1 × 1 result to a
  scalar — with the buffers' contents named at every boundary, and its run: every weakly fair execution terminates
  with every unscoped buffer at the last boundary's contents. The arguments reach the end as launched: no segment
  writes one.
-/
import proofs.«167937_j47399259079182_2_alg».proof.Proof.KI.Reg0
import proofs.«167937_j47399259079182_2_alg».proof.Proof.KI.Reg1
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev Wa : Dev nD → Valuation τ sig (Elt F) := fun c b => (s₀ m ρ).mem ((c : Dev nD), b)
abbrev Va : (c : Dev nD) → (b : Ref sig .tc) → Buf (Elt F) ((c : Thread nD τ).loc b) := fun c b => Wa m ρ c b
/-- After the pooling call: its arrays at what its write-backs leave, the rest as entered. -/
def Wb (c : Dev nD) : Valuation τ sig (Elt F) :=
  Pipeline.withArrays spec0 c (Wa m ρ c) fun w => (dat0 (Va m ρ) c).arrAt w cfg0.N
theorem Wb_arr (c : Dev nD) (w : Fin cfg0.W) :
    Wb m ρ c (Proc.devRef .tc (Pipeline.arrRef spec0 w)) = (dat0 (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
abbrev Vb : (c : Dev nD) → (b : Ref sig .tc) → Buf (Elt F) ((c : Thread nD τ).loc b) := fun c b => Wb m ρ c b
theorem hF0 (c : Dev nD) (w : Fin cfg0.W) : (dat0 (Va m ρ) c).arrAt w cfg0.N = Vb m ρ c (Pipeline.arrRef spec0 w) :=
  (Wb_arr m ρ c w).symm
theorem hrest0 (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- After the loss call. -/
def Wc (c : Dev nD) : Valuation τ sig (Elt F) :=
  Pipeline.withArrays spec1 c (Wb m ρ c) fun w => (dat1 (Vb m ρ) c).arrAt w cfg1.N
theorem Wc_arr (c : Dev nD) (w : Fin cfg1.W) :
    Wc m ρ c (Proc.devRef .tc (Pipeline.arrRef spec1 w)) = (dat1 (Vb m ρ) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m ρ c (Proc.devRef .tc b) = Wb m ρ c (Proc.devRef .tc b) := by
  unfold Wc; exact Pipeline.withArrays_of_ne spec1 c _ _ b hb
abbrev Vc : (c : Dev nD) → (b : Ref sig .tc) → Buf (Elt F) ((c : Thread nD τ).loc b) := fun c b => Wc m ρ c b
theorem hF1 (c : Dev nD) (w : Fin cfg1.W) : (dat1 (Vb m ρ) c).arrAt w cfg1.N = Vc m ρ c (Pipeline.arrRef spec1 w) :=
  (Wc_arr m ρ c w).symm
theorem hrest1 (c : Dev nD) : ∀ b, b ∉ Finset.univ.image (Pipeline.arrRef spec1) → Vc m ρ c b = Vb m ρ c b :=
  fun b hb => Wc_of_ne m ρ c b fun w e => hb (Finset.mem_image.mpr ⟨w, Finset.mem_univ _, e⟩)

/-- After the final reshape. -/
abbrev Wd : Dev nD → Valuation τ sig (Elt F) := fun c => StableHlo.after hostOps2 (Wc m ρ c)

/-! ### The arguments end as launched -/

theorem Wd_main_arg0 (c : Dev nD) : Wd m ρ c (Proc.devRef .tc main_arg0) = m ((c : Thread nD τ).loc main_arg0) :=
  calc Wd m ρ c (Proc.devRef .tc main_arg0)
    _ = Wc m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.reshape_writes, Finset.mem_singleton]
          exact StableHlo.devRef_ne_of_ne (by decide)))
    _ = Wb m ρ c (Proc.devRef .tc main_arg0) := Wc_of_ne m ρ c main_arg0 (by decide)
    _ = Wa m ρ c (Proc.devRef .tc main_arg0) := Wb_of_ne m ρ c main_arg0 (by decide)
    _ = m ((c : Thread nD τ).loc main_arg0) := rfl

theorem Wd_main_arg1 (c : Dev nD) : Wd m ρ c (Proc.devRef .tc main_arg1) = m ((c : Thread nD τ).loc main_arg1) :=
  calc Wd m ρ c (Proc.devRef .tc main_arg1)
    _ = Wc m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.reshape_writes, Finset.mem_singleton]
          exact StableHlo.devRef_ne_of_ne (by decide)))
    _ = Wb m ρ c (Proc.devRef .tc main_arg1) := (Wc_arr m ρ c 0).trans (((dat1 (Vb m ρ) c).arrAt_in 0 rfl _).trans (A_eq1 (Vb m ρ) c 0))
    _ = Wa m ρ c (Proc.devRef .tc main_arg1) := (Wb_arr m ρ c 0).trans (((dat0 (Va m ρ) c).arrAt_in 0 rfl _).trans (A_eq0 (Va m ρ) c 0))
    _ = m ((c : Thread nD τ).loc main_arg1) := rfl

theorem Wd_main_arg2 (c : Dev nD) : Wd m ρ c (Proc.devRef .tc main_arg2) = m ((c : Thread nD τ).loc main_arg2) :=
  calc Wd m ρ c (Proc.devRef .tc main_arg2)
    _ = Wc m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.reshape_writes, Finset.mem_singleton]
          exact StableHlo.devRef_ne_of_ne (by decide)))
    _ = Wb m ρ c (Proc.devRef .tc main_arg2) := (Wc_arr m ρ c 2).trans (((dat1 (Vb m ρ) c).arrAt_in 2 rfl _).trans (A_eq1 (Vb m ρ) c 2))
    _ = Wa m ρ c (Proc.devRef .tc main_arg2) := Wb_of_ne m ρ c main_arg2 (by decide)
    _ = m ((c : Thread nD τ).loc main_arg2) := rfl

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (Va m ρ) c
  | ⟨1, _⟩ => fun c => dat1 (Vb m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The second call's invariant as the launch takes it back: the generator register beside the scoped rest. -/
theorem PhiA1_out (c : Dev nD) : (Pipeline.ΦA spec1 c : sProp 𝕄)
    ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

/-! ## The calls as segments -/

set_option backward.isDefEq.respectTransparency.types false in
/-- Call 0 over the thread state: entered with every unscoped buffer at the contents before it, left with the
    call's arrays at what its write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at the contents before it, left with the
    call's arrays at what its write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (Wb m ρ c) ∗ R c)
  post c := iprop(StableHlo.held (c : Thread nD τ) (Pipeline.ucRefs τ sig) (Wc m ρ c) ∗ R c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (Vb m ρ) c).trans (PhiA1_out c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb m ρ c) (Vc m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh' (Wc m ρ)) ]
theorem main_run (c : Dev nD) : main (F := F) c = Pipeline.Seg.run (segs m ρ) := (main_chain c).trans (by chain_rfl)

set_option backward.isDefEq.respectTransparency.types false in
/-- THE RUN: every weakly fair execution of the program terminates, nothing faulting, with every unscoped buffer at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ R c))
    (Tₙ := fun c => iprop(StableHlo.held (c : Thread nD τ) (Pipeline.ucRefs τ sig) (Wd m ρ c) ∗ ∃ r, prngReg c r))
    (hch := ⟨fun _ => .rfl, fun _ => .rfl, fun _ => .rfl, fun c => by
      show iprop(StableHlo.held (c : Thread nD τ) (Pipeline.ucRefs τ sig) (Wd m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd m ρ c) s')
      isplitl [Hh] <;> iassumption)
    (hQ := fun s h => h)

end Cert.KernelIdeal.Hand

end
-- ==== Proof.Spec.lean ====
/-
  The mathematics both programs compute, stated once over plain coordinate functions.

  For one image (a 1024 × 1024 map of class labels) and one class `c`: `hot` is the class indicator, `pool` its 4 × 4
  block average (a 256 × 256 map), and for a query patch `l` (one of 64 × 64 patches of 16 × 16 pixels) and a pooled
  patch `m` (one of 16 × 16 patches of 16 × 16 pooled pixels) `attGt` is the mean over the 256 positions inside a patch of
  indicator × pooled indicator. The loss is the mean over images, classes, `l` and `m` of the squared difference between
  the given attention and `attGt`. The kernel visits the (image, band of 1024 query patches) pairs in row-major order
  and, inside each, the four classes, adding one band's sum of squares at a time (`acc`); `acc_total` (proved elsewhere)
  says the running sum after all 128 steps is the whole sum.
-/
import Idealize.ShloMosaic.PureOps.Ideal

noncomputable section

namespace Cert.Spec

open BigOperators

/-- One image's label map, and one image's attention for one class. -/
abbrev Img := Fin 1024 → Fin 1024 → BitVec 32
abbrev Pooled := Fin 256 → Fin 256 → EReal

/-- The class indicator of label word `x`. -/
def ind (x : BitVec 32) (c : Fin 4) : EReal := if x = BitVec.ofNat 32 c.val then 1 else 0

/-- Pixel row (or column) `4 i + d`. -/
def row4 (i : Fin 256) (d : Fin 4) : Fin 1024 := ⟨4 * i.val + d.val, by omega⟩
/-- Pixel row (or column) `16 h + p` of patch row (column) `h`. -/
def row16 (h : Fin 64) (p : Fin 16) : Fin 1024 := ⟨16 * h.val + p.val, by omega⟩
/-- Pooled row (or column) `16 h + p`. -/
def prow16 (h : Fin 16) (p : Fin 16) : Fin 256 := ⟨16 * h.val + p.val, by omega⟩

def kHi (k : Fin 256) : Fin 16 := ⟨k.val / 16, by omega⟩
def kLo (k : Fin 256) : Fin 16 := ⟨k.val % 16, by omega⟩
def lHi (l : Fin 4096) : Fin 64 := ⟨l.val / 64, by omega⟩
def lLo (l : Fin 4096) : Fin 64 := ⟨l.val % 64, by omega⟩
def mHi (m : Fin 256) : Fin 16 := ⟨m.val / 16, by omega⟩
def mLo (m : Fin 256) : Fin 16 := ⟨m.val % 16, by omega⟩

/-- The 4 × 4 block average of the indicator of class `c`. -/
def pool (g : Img) (c : Fin 4) : Pooled := fun i j =>
  (∑ d1 : Fin 4, ∑ d2 : Fin 4, ind (g (row4 i d1) (row4 j d2)) c) * ((1 / 16 : ℝ) : EReal)

/-- Position `k` (row-major in the 16 × 16 patch) of query patch `l`: the indicator there. -/
def patchInd (g : Img) (c : Fin 4) (l : Fin 4096) (k : Fin 256) : EReal :=
  ind (g (row16 (lHi l) (kHi k)) (row16 (lLo l) (kLo k))) c

/-- Position `k` of pooled patch `m` of a pooled map. -/
def patchPool (y : Pooled) (m : Fin 256) (k : Fin 256) : EReal :=
  y (prow16 (mHi m) (kHi k)) (prow16 (mLo m) (kLo k))

/-- The target attention from a patch's indicators `u` and a pooled map `y`: the mean over the patch positions of the product. -/
def attOf (u : Fin 256 → EReal) (y : Pooled) (m : Fin 256) : EReal :=
  (∑ k : Fin 256, u k * patchPool y m k) * ((1 / 256 : ℝ) : EReal)

/-- The target attention of one image and class. -/
def attGt (g : Img) (c : Fin 4) (l : Fin 4096) (m : Fin 256) : EReal :=
  attOf (patchInd g c l) (pool g c) m

/-- The squared error at one entry. -/
def sqErr (g : Img) (c : Fin 4) (a : Fin 4096 → Fin 256 → EReal) (l : Fin 4096) (m : Fin 256) : EReal :=
  (a l m - attGt g c l m) * (a l m - attGt g c l m)

/-- The whole sum of squared errors. -/
def total (tg : Fin 8 → Img) (av : Fin 8 → Fin 4 → Fin 4096 → Fin 256 → EReal) : EReal :=
  ∑ b : Fin 8, ∑ c : Fin 4, ∑ l : Fin 4096, ∑ m : Fin 256, sqErr (tg b) c (av b c) l m

/-- The loss: the mean of the 8 · 4 · 4096 · 256 = 2^25 squared errors. -/
def loss (tg : Fin 8 → Img) (av : Fin 8 → Fin 4 → Fin 4096 → Fin 256 → EReal) : EReal :=
  total tg av * ((1 / 33554432 : ℝ) : EReal)

/-- Query patch `1024 t + r`: patch `r` of band `t`. -/
def lOf (t : Fin 4) (r : Fin 1024) : Fin 4096 := ⟨1024 * t.val + r.val, by omega⟩

/-- One band's sum of squares for one class: what one trip of the kernel's class loop adds. -/
def tile (g : Img) (c : Fin 4) (a : Fin 4096 → Fin 256 → EReal) (t : Fin 4) : EReal :=
  ∑ r : Fin 1024, ∑ m : Fin 256, sqErr g c a (lOf t r) m

/-- The running sum after `s` steps in the kernel's order: step `s = 16 b + 4 t + c`. -/
def acc (tg : Fin 8 → Img) (av : Fin 8 → Fin 4 → Fin 4096 → Fin 256 → EReal) : ℕ → EReal
  | 0 => 0
  | s + 1 => acc tg av s +
      (if h : s < 128 then tile (tg ⟨s / 16, by omega⟩) ⟨s % 4, by omega⟩ (av ⟨s / 16, by omega⟩ ⟨s % 4, by omega⟩) ⟨s / 4 % 4, by omega⟩ else 0)

end Cert.Spec

end
-- ==== Proof.Payloads.lean ====
/-
  The kernel's payload functions read at an index, over the extended reals.
-/
import proofs.«167937_j47399259079182_2_alg».proof.Proof.Gen.KernelIdeal.Skeleton
import proofs.«167937_j47399259079182_2_alg».proof.Proof.Spec
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Spec
open scoped BigOperators

/-- The word of the float zero is the real number zero. -/
theorem ofBits_zero : Ideal.ofBits .f32 0x00000000#32 = 0 := by
  simp [Ideal.ofBits, Ideal.ieee]

/-- The word `0x33000000` is `2^-25`. -/
theorem ofBits_2m25 : Ideal.ofBits .f32 0x33000000#32 = ((1 / 33554432 : ℝ) : EReal) := by
  simp [Ideal.ofBits, Ideal.ieee, -EReal.coe_mul]; norm_num

/-- The word `0x3D800000` is `1/16`. -/
theorem ofBits_16th : Ideal.ofBits .f32 0x3D800000#32 = ((1 / 16 : ℝ) : EReal) := by
  simp [Ideal.ofBits, Ideal.ieee, -EReal.coe_mul]; norm_num

/-- The word `0x3B800000` is `1/256`. -/
theorem ofBits_256th : Ideal.ofBits .f32 0x3B800000#32 = ((1 / 256 : ℝ) : EReal) := by
  simp [Ideal.ofBits, Ideal.ieee, -EReal.coe_mul]; norm_num

/-- The initial accumulator is zero. -/
theorem pay_zero : k1_pay1 (F := Ideal) (ix2 (0 : Fin 1) (0 : Fin 1)) = 0 := by
  unfold k1_pay1
  rw [shapeCast_self]
  exact ofBits_zero

/-- The output is the accumulator times `2^-25`. -/
theorem pay_out (v13 : Vec Ideal S1x1 .f32) :
    k1_pay3 (F := Ideal) v13 (ix2 (0 : Fin 1) (0 : Fin 1)) = v13 (ix2 (0 : Fin 1) (0 : Fin 1)) * ((1 / 33554432 : ℝ) : EReal) := by
  unfold k1_pay3
  show v13 (ix2 (0 : Fin 1) (0 : Fin 1)) * Ideal.ofBits .f32 0x33000000#32 = _
  rw [ofBits_2m25]

/-- The loop word at trip `k` is the word of `k`. -/
theorem iv_eq (k : Nat) : Scf.iv 0#32 1#32 k = BitVec.ofNat 32 k := by
  simp [Scf.iv]

/-- One label compared with the class word, widened and converted: the class indicator. -/
theorem ind_word (x : BitVec 32) (k : Nat) (hk : k < 4) :
    FloatOps.sitofp (F := Ideal) .f32 ((IntOp.cmpi .eq x (Scf.iv 0#32 1#32 k)).setWidth 32) = Cert.Spec.ind x ⟨k, hk⟩ := by
  rw [iv_eq]
  show (((BitVec.setWidth 32 (BitVec.ofBool (x == BitVec.ofNat 32 k))).toInt : ℝ) : EReal) = if x = BitVec.ofNat 32 k then 1 else 0
  by_cases h : x = BitVec.ofNat 32 k
  · rw [if_pos h, h]; simp
  · rw [if_neg h]
    have hb : (x == BitVec.ofNat 32 k) = false := by simpa using h
    rw [hb]; simp

/-- The indicator array of class `k` at pixel `(r, c)`. -/
theorem hot_apply (v0 : Vec Ideal S1x1024x1024 .i32) (k : Nat) (hk : k < 4) (r c : Fin 1024) :
    (sitofp .f32 (extui 32 (cmpi .eq (shapeCast S1024x1024 v0 shapeCasts_S1x1024x1024_S1024x1024) (broadcast S1024x1024 (Scf.iv 0#32 1#32 k))) natLt_1_32) : FVec Ideal S1024x1024 .f32) (ix2 r c)
      = Cert.Spec.ind (v0 (ix3 (0 : Fin 1) r c)) ⟨k, hk⟩ := by
  show FloatOps.sitofp (F := Ideal) .f32 ((IntOp.cmpi .eq (shapeCast S1024x1024 v0 shapeCasts_S1x1024x1024_S1024x1024 (ix2 r c)) (Scf.iv 0#32 1#32 k)).setWidth 32) = _
  rw [shapeCast_apply v0 shapeCasts_S1x1024x1024_S1024x1024 (ix2 r c) (ix3 (0 : Fin 1) r c) (by
    rw [Shape.rowMajor_val_two, Shape.rowMajor_val_three]
    show ((0 : ℕ) * 1024 + r.val) * 1024 + c.val = r.val * 1024 + c.val
    omega)]
  exact ind_word _ _ hk

/-- A [256,256] map stored as a [1,1,256,256] block. -/
theorem cast_out (x : FVec Ideal S256x256 .f32) (i j : Fin 256) :
    shapeCast S1x1x256x256 x shapeCasts_S256x256_S1x1x256x256 (ix4 (0 : Fin 1) (0 : Fin 1) i j) = x (ix2 i j) :=
  shapeCast_apply x _ _ (ix2 i j) (by
    rw [Shape.rowMajor_val_two, Shape.rowMajor_val_four]
    show i.val * 256 + j.val = (((0 : ℕ) * 1 + 0) * 256 + i.val) * 256 + j.val
    omega)

/-- The sum over the last axis of a [256,256,4] array. -/
theorem red_last (src : FVec Ideal S256x256x4 .f32) (i j : Fin 256) :
    multiReduction .add [2] S256x256 src 0x00000000#32 reduces_S256x256x4_S256x256 (.inl rfl) rfl (ix2 i j)
      = ∑ d : Fin 4, src (ix3 i j d) := by
  refine (Ideal.multiReduction_add_single src _ reduces_S256x256x4_S256x256 _ _ (ix2 i j)).trans ?_
  refine Finset.sum_congr rfl fun d _ => congrArg src ?_
  funext a
  match a with
  | ⟨0, _⟩ => exact Fin.ext rfl
  | ⟨1, _⟩ => exact Fin.ext rfl
  | ⟨2, _⟩ => exact Fin.ext rfl

/-- A [256,1024] array viewed [256,256,4]: column `4 j + d`. -/
theorem cast_lanes (x : FVec Ideal S256x1024 .f32) (i j : Fin 256) (d : Fin 4) :
    shapeCast S256x256x4 x shapeCasts_S256x1024_S256x256x4 (ix3 i j d) = x (ix2 i (Cert.Spec.row4 j d)) :=
  shapeCast_apply x _ _ (ix2 i (Cert.Spec.row4 j d)) (by
    rw [Shape.rowMajor_val_two, Shape.rowMajor_val_three]
    show i.val * 1024 + (4 * j.val + d.val) = (i.val * 256 + j.val) * 4 + d.val
    omega)

/-- The sum over the middle axis of a [256,4,1024] array. -/
theorem red_mid (src : FVec Ideal S256x4x1024 .f32) (i : Fin 256) (c : Fin 1024) :
    multiReduction .add [1] S256x1024 src 0x00000000#32 reduces_S256x4x1024_S256x1024 (.inl rfl) rfl (ix2 i c)
      = ∑ d : Fin 4, src (ix3 i d c) := by
  refine (Ideal.multiReduction_add_single src _ reduces_S256x4x1024_S256x1024 _ _ (ix2 i c)).trans ?_
  refine Finset.sum_congr rfl fun d _ => congrArg src ?_
  funext a
  match a with
  | ⟨0, _⟩ => exact Fin.ext rfl
  | ⟨1, _⟩ => exact Fin.ext rfl
  | ⟨2, _⟩ => exact Fin.ext rfl

/-- A [1024,1024] array viewed [256,4,1024]: row `4 i + d`. -/
theorem cast_rows (x : FVec Ideal S1024x1024 .f32) (i : Fin 256) (d : Fin 4) (c : Fin 1024) :
    shapeCast S256x4x1024 x shapeCasts_S1024x1024_S256x4x1024 (ix3 i d c) = x (ix2 (Cert.Spec.row4 i d) c) :=
  shapeCast_apply x _ _ (ix2 (Cert.Spec.row4 i d) c) (by
    rw [Shape.rowMajor_val_two, Shape.rowMajor_val_three]
    show (4 * i.val + d.val) * 1024 + c.val = (i.val * 4 + d.val) * 1024 + c.val
    omega)

/-- The pooling payload at `(i, j)` is the 4 × 4 block average of the class indicator. -/
theorem pay_pool (v0 : Vec Ideal S1x1024x1024 .i32) (k : Fin k0_t1_loop.trips) (hk : k.val < 4) (i j : Fin 256) :
    k0_pay1 (F := Ideal) v0 k (ix4 (0 : Fin 1) (0 : Fin 1) i j)
      = Cert.Spec.pool (fun h w => v0 (ix3 (0 : Fin 1) h w)) ⟨k.val, hk⟩ i j := by
  unfold k0_pay1 Cert.Spec.pool
  refine (cast_out _ i j).trans ?_
  refine (mulf_apply _ _ (ix2 i j)).trans ?_
  refine congrArg₂ (· * ·) ?_ ofBits_16th
  refine (red_last _ i j).trans ?_
  refine Eq.trans ?_ Finset.sum_comm
  refine Finset.sum_congr rfl fun d2 _ => ?_
  refine (cast_lanes _ i j d2).trans ?_
  refine (red_mid _ i (Cert.Spec.row4 j d2)).trans ?_
  refine Finset.sum_congr rfl fun d1 _ => ?_
  refine (cast_rows _ i d1 (Cert.Spec.row4 j d2)).trans ?_
  exact hot_apply v0 k.val hk (Cert.Spec.row4 i d1) (Cert.Spec.row4 j d2)

/-- The left operand's index of the contraction: the contracted coordinate on axis 0, -/
theorem lhs_0 (j : S1024x256.Idx) (q : dot_S256x1024_S256x256_S1024x256_0_0_1_1_n_n.contr.Idx) : (dot_S256x1024_S256x256_S1024x256_0_0_1_1_n_n.lhsIdx j q 0).val = (q ⟨0, by decide⟩).val :=
  dot_S256x1024_S256x256_S1024x256_0_0_1_1_n_n.lhsIdx_val_of_single rfl j q
/-- the output row on axis 1. -/
theorem lhs_1 (j : S1024x256.Idx) (q : dot_S256x1024_S256x256_S1024x256_0_0_1_1_n_n.contr.Idx) : (dot_S256x1024_S256x256_S1024x256_0_0_1_1_n_n.lhsIdx j q 1).val = (j 0).val := by
  unfold DotDims.lhsIdx
  rw [dif_neg (show ¬(1 : Fin S256x1024.rank) ∈ dot_S256x1024_S256x256_S1024x256_0_0_1_1_n_n.lhsBatch by decide), dif_pos (show (1 : Fin S256x1024.rank) ∈ dot_S256x1024_S256x256_S1024x256_0_0_1_1_n_n.lhsNonContracting by decide)]
  rfl
/-- The right operand's index: the contracted coordinate on axis 0, -/
theorem rhs_0 (j : S1024x256.Idx) (q : dot_S256x1024_S256x256_S1024x256_0_0_1_1_n_n.contr.Idx) : (dot_S256x1024_S256x256_S1024x256_0_0_1_1_n_n.rhsIdx j q 0).val = (q ⟨0, by decide⟩).val :=
  dot_S256x1024_S256x256_S1024x256_0_0_1_1_n_n.rhsIdx_val_of_single rfl j q
/-- the output column on axis 1. -/
theorem rhs_1 (j : S1024x256.Idx) (q : dot_S256x1024_S256x256_S1024x256_0_0_1_1_n_n.contr.Idx) : (dot_S256x1024_S256x256_S1024x256_0_0_1_1_n_n.rhsIdx j q 1).val = (j 1).val := by
  unfold DotDims.rhsIdx
  rw [dif_neg (show ¬(1 : Fin S256x256.rank) ∈ dot_S256x1024_S256x256_S1024x256_0_0_1_1_n_n.rhsBatch by decide), dif_pos (show (1 : Fin S256x256.rank) ∈ dot_S256x1024_S256x256_S1024x256_0_0_1_1_n_n.rhsNonContracting by decide)]
  rfl

/-- The product contracting axis 0 of both operands into a zero accumulator, at `(r, m)`. -/
theorem matmul_at (lhs : FVec Ideal S256x1024 .bf16) (rhs : FVec Ideal S256x256 .bf16) (r : Fin 1024) (m : Fin 256) :
    matmul dot_S256x1024_S256x256_S1024x256_0_0_1_1_n_n none lhs rhs (constant S1024x256 .f32 0x00000000#32) (ix2 r m)
      = ∑ kk : Fin 256, lhs (ix2 kk r) * rhs (ix2 kk m) := by
  simp only [matmul]
  rw [Ideal.matmul_constant_zero_apply, ← Equiv.sum_comp (contrEquiv1 dot_S256x1024_S256x256_S1024x256_0_0_1_1_n_n 256 rfl rfl).symm]
  refine Finset.sum_congr rfl fun kk _ => ?_
  have hk := contrEquiv1_symm_val dot_S256x1024_S256x256_S1024x256_0_0_1_1_n_n 256 rfl rfl kk
  have el : dot_S256x1024_S256x256_S1024x256_0_0_1_1_n_n.lhsIdx (ix2 r m) ((contrEquiv1 dot_S256x1024_S256x256_S1024x256_0_0_1_1_n_n 256 rfl rfl).symm kk) = ix2 kk r := funext fun a => Fin.ext (by
    match a with
    | ⟨0, _⟩ => exact (lhs_0 _ _).trans hk
    | ⟨1, _⟩ => exact lhs_1 _ _)
  have er : dot_S256x1024_S256x256_S1024x256_0_0_1_1_n_n.rhsIdx (ix2 r m) ((contrEquiv1 dot_S256x1024_S256x256_S1024x256_0_0_1_1_n_n 256 rfl rfl).symm kk) = ix2 kk m := funext fun a => Fin.ext (by
    match a with
    | ⟨0, _⟩ => exact (rhs_0 _ _).trans hk
    | ⟨1, _⟩ => exact rhs_1 _ _)
  rw [el, er]

/-- The band's indicator rows regrouped by position inside a patch: row `16 p + q`, column `64 hb + wb` reads pixel
    `(16 hb + p, 16 wb + q)`. -/
theorem band_apply (x : FVec Ideal S256x1024 .f32) (kk : Fin 256) (r : Fin 1024) :
    shapeCast S256x1024 (transpose S16x16x16x64 [1, 3, 0, 2] (shapeCast S16x16x64x16 x shapeCasts_S256x1024_S16x16x64x16)
        transposes_S16x16x64x16_p1_3_0_2_S16x16x16x64) shapeCasts_S16x16x16x64_S256x1024 (ix2 kk r)
      = x (ix2 (⟨16 * (r.val / 64) + kk.val / 16, by omega⟩ : Fin 256) (⟨16 * (r.val % 64) + kk.val % 16, by omega⟩ : Fin 1024)) := by
  have hkk := kk.isLt
  have hr := r.isLt
  refine (shapeCast_apply _ _ (ix2 kk r)
    (ix4 (⟨kk.val / 16, by omega⟩ : Fin 16) (⟨kk.val % 16, by omega⟩ : Fin 16) (⟨r.val / 64, by omega⟩ : Fin 16) (⟨r.val % 64, by omega⟩ : Fin 64)) ?_).trans ?_
  · rw [Shape.rowMajor_val_two, Shape.rowMajor_val_four]
    show (((kk.val / 16) * 16 + kk.val % 16) * 16 + r.val / 64) * 64 + r.val % 64 = kk.val * 1024 + r.val
    omega
  refine (transpose_apply _ _ _ _
    (ix4 (⟨r.val / 64, by omega⟩ : Fin 16) (⟨kk.val / 16, by omega⟩ : Fin 16) (⟨r.val % 64, by omega⟩ : Fin 64) (⟨kk.val % 16, by omega⟩ : Fin 16))
    (fun b => match b with | ⟨0, _⟩ => rfl | ⟨1, _⟩ => rfl | ⟨2, _⟩ => rfl | ⟨3, _⟩ => rfl)).trans ?_
  refine shapeCast_apply _ _ _ _ ?_
  rw [Shape.rowMajor_val_two, Shape.rowMajor_val_four]
  show (16 * (r.val / 64) + kk.val / 16) * 1024 + (16 * (r.val % 64) + kk.val % 16)
    = (((r.val / 64) * 16 + kk.val / 16) * 64 + r.val % 64) * 16 + kk.val % 16
  omega

/-- The pooled map regrouped the same way: row `16 p + q`, column `16 hb + wb` reads pooled pixel `(16 hb + p, 16 wb + q)`. -/
theorem pooled_apply (x : FVec Ideal S256x256 .f32) (kk m : Fin 256) :
    shapeCast S256x256 (transpose S16x16x16x16 [1, 3, 0, 2] (shapeCast S16x16x16x16 x shapeCasts_S256x256_S16x16x16x16)
        transposes_S16x16x16x16_p1_3_0_2_S16x16x16x16) shapeCasts_S16x16x16x16_S256x256 (ix2 kk m)
      = x (ix2 (Cert.Spec.prow16 (Cert.Spec.mHi m) (Cert.Spec.kHi kk)) (Cert.Spec.prow16 (Cert.Spec.mLo m) (Cert.Spec.kLo kk))) := by
  have hkk := kk.isLt
  have hm := m.isLt
  refine (shapeCast_apply _ _ (ix2 kk m)
    (ix4 (⟨kk.val / 16, by omega⟩ : Fin 16) (⟨kk.val % 16, by omega⟩ : Fin 16) (⟨m.val / 16, by omega⟩ : Fin 16) (⟨m.val % 16, by omega⟩ : Fin 16)) ?_).trans ?_
  · rw [Shape.rowMajor_val_two, Shape.rowMajor_val_four]
    show (((kk.val / 16) * 16 + kk.val % 16) * 16 + m.val / 16) * 16 + m.val % 16 = kk.val * 256 + m.val
    omega
  refine (transpose_apply _ _ _ _
    (ix4 (⟨m.val / 16, by omega⟩ : Fin 16) (⟨kk.val / 16, by omega⟩ : Fin 16) (⟨m.val % 16, by omega⟩ : Fin 16) (⟨kk.val % 16, by omega⟩ : Fin 16))
    (fun b => match b with | ⟨0, _⟩ => rfl | ⟨1, _⟩ => rfl | ⟨2, _⟩ => rfl | ⟨3, _⟩ => rfl)).trans ?_
  refine shapeCast_apply _ _ _ _ ?_
  rw [Shape.rowMajor_val_two, Shape.rowMajor_val_four]
  show (16 * (m.val / 16) + kk.val / 16) * 256 + (16 * (m.val % 16) + kk.val % 16)
    = (((m.val / 16) * 16 + kk.val / 16) * 16 + m.val % 16) * 16 + kk.val % 16
  omega

/-- The band's indicator array of class `k` at pixel `(a, b)` of the band. -/
theorem hot_band (v5 : Vec Ideal S1x256x1024 .i32) (k : Nat) (hk : k < 4) (a : Fin 256) (b : Fin 1024) :
    (sitofp .f32 (extui 32 (cmpi .eq (shapeCast S256x1024 v5 shapeCasts_S1x256x1024_S256x1024) (broadcast S256x1024 (Scf.iv 0#32 1#32 k))) natLt_1_32) : FVec Ideal S256x1024 .f32) (ix2 a b)
      = Cert.Spec.ind (v5 (ix3 (0 : Fin 1) a b)) ⟨k, hk⟩ := by
  show FloatOps.sitofp (F := Ideal) .f32 ((IntOp.cmpi .eq (shapeCast S256x1024 v5 shapeCasts_S1x256x1024_S256x1024 (ix2 a b)) (Scf.iv 0#32 1#32 k)).setWidth 32) = _
  rw [shapeCast_apply v5 shapeCasts_S1x256x1024_S256x1024 (ix2 a b) (ix3 (0 : Fin 1) a b) (by
    rw [Shape.rowMajor_val_two, Shape.rowMajor_val_three]
    show ((0 : ℕ) * 256 + a.val) * 1024 + b.val = a.val * 1024 + b.val
    omega)]
  exact ind_word _ _ hk

/-- A [1,1,256,256] block viewed [256,256]. -/
theorem cast_pool_in (x : Vec Ideal S1x1x256x256 .f32) (a b : Fin 256) :
    shapeCast S256x256 x shapeCasts_S1x1x256x256_S256x256 (ix2 a b) = x (ix4 (0 : Fin 1) (0 : Fin 1) a b) :=
  shapeCast_apply x _ _ (ix4 (0 : Fin 1) (0 : Fin 1) a b) (by
    rw [Shape.rowMajor_val_two, Shape.rowMajor_val_four]
    show (((0 : ℕ) * 1 + 0) * 256 + a.val) * 256 + b.val = a.val * 256 + b.val
    omega)

/-- A [1,1,1024,256] block viewed [1024,256]. -/
theorem cast_att (x : Vec Ideal S1x1x1024x256 .f32) (r : Fin 1024) (m : Fin 256) :
    shapeCast S1024x256 x shapeCasts_S1x1x1024x256_S1024x256 (ix2 r m) = x (ix4 (0 : Fin 1) (0 : Fin 1) r m) :=
  shapeCast_apply x _ _ (ix4 (0 : Fin 1) (0 : Fin 1) r m) (by
    rw [Shape.rowMajor_val_two, Shape.rowMajor_val_four]
    show (((0 : ℕ) * 1 + 0) * 1024 + r.val) * 256 + m.val = r.val * 256 + m.val
    omega)

/-- The sum over the columns of a [1024,256] array. -/
theorem red_cols (src : FVec Ideal S1024x256 .f32) (r : Fin 1024) :
    multiReduction .add [1] S1024 src 0x00000000#32 reduces_S1024x256_S1024 (.inl rfl) rfl (ix1 r)
      = ∑ m : Fin 256, src (ix2 r m) := by
  refine (Ideal.multiReduction_add_single src _ reduces_S1024x256_S1024 _ _ (ix1 r)).trans ?_
  refine Finset.sum_congr rfl fun d _ => congrArg src ?_
  funext a
  match a with
  | ⟨0, _⟩ => exact Fin.ext rfl
  | ⟨1, _⟩ => exact Fin.ext rfl

/-- A [1024] array viewed [1024,1]. -/
theorem cast_col (x : FVec Ideal S1024 .f32) (r : Fin 1024) :
    shapeCast S1024x1 x shapeCasts_S1024_S1024x1 (ix2 r (0 : Fin 1)) = x (ix1 r) :=
  shapeCast_apply x _ _ (ix1 r) (by
    rw [Shape.rowMajor_val_one, Shape.rowMajor_val_two]
    show r.val = r.val * 1 + 0
    omega)

/-- The sum over the rows of a [1024,1] array. -/
theorem red_rows (src : FVec Ideal S1024x1 .f32) :
    multiReduction .add [0] S1 src 0x00000000#32 reduces_S1024x1_S1 (.inl rfl) rfl (ix1 (0 : Fin 1))
      = ∑ r : Fin 1024, src (ix2 r (0 : Fin 1)) := by
  refine (Ideal.multiReduction_add_single src _ reduces_S1024x1_S1 _ _ (ix1 (0 : Fin 1))).trans ?_
  refine Finset.sum_congr rfl fun d _ => congrArg src ?_
  funext a
  match a with
  | ⟨0, _⟩ => exact Fin.ext rfl
  | ⟨1, _⟩ => exact Fin.ext rfl

/-- A [1] array viewed [1,1]. -/
theorem cast_s1 (x : FVec Ideal S1 .f32) :
    shapeCast S1x1 x shapeCasts_S1_S1x1 (ix2 (0 : Fin 1) (0 : Fin 1)) = x (ix1 (0 : Fin 1)) :=
  shapeCast_apply x _ _ (ix1 (0 : Fin 1)) (by
    rw [Shape.rowMajor_val_one, Shape.rowMajor_val_two]
    show (0 : ℕ) = 0 * 1 + 0
    omega)

/-- The accumulation payload: the accumulator plus one band's sum of squared differences between the given attention
    and the mean over a patch's positions of indicator times pooled indicator. -/
theorem pay_acc (v5 : Vec Ideal S1x256x1024 .i32) (k : Fin k1_t1_loop.trips) (hk : k.val < 4)
    (v21 : Vec Ideal S1x1x256x256 .f32) (v32 : Vec Ideal S1x1x1024x256 .f32) (v40 : Vec Ideal S1x1 .f32) :
    k1_pay2 (F := Ideal) v5 k v21 v32 v40 (ix2 (0 : Fin 1) (0 : Fin 1))
      = v40 (ix2 (0 : Fin 1) (0 : Fin 1)) + ∑ r : Fin 1024, ∑ m : Fin 256,
          (v32 (ix4 (0 : Fin 1) (0 : Fin 1) r m) - Cert.Spec.attOf (fun kk : Fin 256 => Cert.Spec.ind (v5 (ix3 (0 : Fin 1) (⟨16 * (r.val / 64) + kk.val / 16, by omega⟩ : Fin 256) (⟨16 * (r.val % 64) + kk.val % 16, by omega⟩ : Fin 1024))) ⟨k.val, hk⟩) (fun i j => v21 (ix4 (0 : Fin 1) (0 : Fin 1) i j)) m)
        * (v32 (ix4 (0 : Fin 1) (0 : Fin 1) r m) - Cert.Spec.attOf (fun kk : Fin 256 => Cert.Spec.ind (v5 (ix3 (0 : Fin 1) (⟨16 * (r.val / 64) + kk.val / 16, by omega⟩ : Fin 256) (⟨16 * (r.val % 64) + kk.val % 16, by omega⟩ : Fin 1024))) ⟨k.val, hk⟩) (fun i j => v21 (ix4 (0 : Fin 1) (0 : Fin 1) i j)) m) := by
  unfold k1_pay2
  refine (congrFun (shapeCast_self _ _) (ix2 (0 : Fin 1) (0 : Fin 1))).trans ?_
  refine (addf_apply _ _ _).trans ?_
  refine congrArg (v40 (ix2 (0 : Fin 1) (0 : Fin 1)) + ·) ?_
  refine (cast_s1 _).trans ?_
  refine (red_rows _).trans ?_
  refine Finset.sum_congr rfl fun r _ => ?_
  refine (cast_col _ r).trans ?_
  refine (red_cols _ r).trans ?_
  refine Finset.sum_congr rfl fun m _ => ?_
  refine (mulf_apply _ _ _).trans ?_
  refine congrArg₂ (· * ·) ?_ ?_ <;>
  · refine (subf_apply _ _ _).trans ?_
    refine congrArg₂ (· - ·) (cast_att v32 r m) ?_
    refine (mulf_apply _ _ _).trans ?_
    unfold Cert.Spec.attOf
    refine congrArg₂ (· * ·) ?_ ofBits_256th
    refine (matmul_at _ _ r m).trans ?_
    refine Finset.sum_congr rfl fun kk _ => ?_
    refine congrArg₂ (· * ·) ?_ ?_
    · refine (truncf_apply (ψ := .bf16) _ bitsLt_bf16_f32 (ix2 kk r)).trans ?_
      refine (band_apply _ kk r).trans ?_
      exact hot_band v5 k.val hk _ _
    · refine (truncf_apply (ψ := .bf16) _ bitsLt_bf16_f32 (ix2 kk m)).trans ?_
      refine (pooled_apply _ kk m).trans ?_
      exact cast_pool_in v21 _ _

end Cert.KernelIdeal.Pay

end
-- ==== Proof.Val0.lean ====
/-
  What the pooling kernel leaves in its output block, read at an index: the 4 × 4 block average of each class's
  indicator. The four trips of the class loop each store one class's slab; the slabs tile the block, and each slab's
  payload is the pooled indicator of its class.
-/
import proofs.«167937_j47399259079182_2_alg».proof.Proof.KI.Reg0
import proofs.«167937_j47399259079182_2_alg».proof.Proof.Payloads

set_option maxRecDepth 16384

noncomputable section

namespace Cert.KernelIdeal.Val

open Cert.KernelIdeal Cert.KernelIdeal.Gen Cert.KernelIdeal.Hand Cert.KernelIdeal.Pay Cert.Spec
open Idealize.ShloMosaic Idealize.ShloMosaic.ValueIdx Idealize.ShloMosaic.TcCoe
open Idealize.SL Idealize.SL.Sem
open scoped BigOperators

section AnyFloat

variable {F : FTy → Type} [FloatOps F]

theorem pool_hz3 : (![0, 0, 0] : Fin 3 → Nat) = fun _ => 0 := funext fun a => by fin_cases a <;> rfl

/-- The label block as the kernel loads it is the block the buffer holds. -/
theorem pool_loaded_eq (arg1 : Memref sig .tc .vmem S1x1024x1024 .i32) (harg1 : arg1.IsWhole) (x0 : Vec F S1x1024x1024 .i32) :
    View.readAt (Elt F) arg1.view (Rect.unit ![0, 0, 0] S1x1024x1024.size inb_S1x1024x1024_S1x1024x1024_0_0_0).toLoadRect (harg1.unread x0) = x0 := by
  rw [View.readAt_eq_ld, harg1.read_unread, View.ld_unit_zero (S := S1x1024x1024) pool_hz3]

/-- One trip of the class loop stores one piece: the class's payload at the class's slab. -/
theorem pool_tripL_eq (𝒱 : Variants) (c : Dev nD) (bd : Option 𝒱.V) (i : grid0.Coords) (arg1 : Memref sig .tc .vmem S1x1024x1024 .i32) (harg1 : arg1.IsWhole)
    (arg2 : Memref sig .tc .vmem S1x4x256x256 .f32) (harg2 : arg2.IsWhole) (v0 : Vec F S1x1024x1024 .i32) (k : Fin k0_t1_loop.trips) :
    tripL_k0_t1 (F := F) 𝒱 c bd i arg1 harg1 arg2 harg2 v0 k
      = [⟨Rect.unit (s := S1x4x256x256) (k0_off1 k) S1x1x256x256.size (k0_off1_inb k), k0_pay1 v0 k⟩] := by
  unfold tripL_k0_t1 trip_k0_t1
  rfl

/-- Every piece the trips before `n` store is some class's payload at that class's slab. -/
theorem pool_mem_pb (𝒱 : Variants) (c : Dev nD) (bd : Option 𝒱.V) (i : grid0.Coords) (arg1 : Memref sig .tc .vmem S1x1024x1024 .i32) (harg1 : arg1.IsWhole)
    (arg2 : Memref sig .tc .vmem S1x4x256x256 .f32) (harg2 : arg2.IsWhole) (v0 : Vec F S1x1024x1024 .i32) :
    ∀ (n : ℕ), n ≤ k0_t1_loop.trips → ∀ p ∈ pb_k0_t1 (F := F) 𝒱 c bd i arg1 harg1 arg2 harg2 v0 n,
      ∃ k : Fin k0_t1_loop.trips, p = ⟨Rect.unit (s := S1x4x256x256) (k0_off1 k) S1x1x256x256.size (k0_off1_inb k), k0_pay1 v0 k⟩
  | 0, _, p, hp => by
    rw [pb_k0_t1.eq_1] at hp
    exact absurd hp List.not_mem_nil
  | n + 1, hn, p, hp => by
    have hs := pb_k0_t1_succ (F := F) 𝒱 c bd i arg1 harg1 arg2 harg2 v0 ⟨n, hn⟩
    rw [hs, pool_tripL_eq] at hp
    rcases List.mem_append.mp hp with h | h
    · exact ⟨⟨n, hn⟩, List.mem_singleton.mp h⟩
    · exact pool_mem_pb 𝒱 c bd i arg1 harg1 arg2 harg2 v0 n (Nat.le_of_succ_le hn) p h

/-- The run's pieces are the class loop's, over the label block. -/
theorem pool_run_eq (c : Dev nD) (i : grid0.Coords) (arg1 : Memref sig .tc .vmem S1x1024x1024 .i32) (harg1 : arg1.IsWhole)
    (arg2 : Memref sig .tc .vmem S1x4x256x256 .f32) (harg2 : arg2.IsWhole) (x0 : Vec F S1x1024x1024 .i32) :
    (kernelRun0 (F := F) c i arg1 harg1 arg2 harg2 x0).1
      = pb_k0_t1 (F := F) Variants.none c none i arg1 harg1 arg2 harg2 x0 k0_t1_loop.trips := by
  unfold kernelRun0
  show pb_k0_t1 (F := F) Variants.none c none i arg1 harg1 arg2 harg2
      (View.readAt (Elt F) arg1.view (Rect.unit ![0, 0, 0] S1x1024x1024.size inb_S1x1024x1024_S1x1024x1024_0_0_0).toLoadRect (harg1.unread x0))
      k0_t1_loop.trips = _
  rw [pool_loaded_eq]

end AnyFloat

/-- The pooled indicator of every class, as one function of the output block's index. -/
def poolBlock (x0 : Vec Ideal S1x1024x1024 .i32) (y : S1x4x256x256.Idx) : Elt Ideal .f32 :=
  Cert.Spec.pool (fun h w => x0 (ix3 (0 : Fin 1) h w)) ⟨(y 1).val, (y 1).isLt⟩ ⟨(y 2).val, (y 2).isLt⟩ ⟨(y 3).val, (y 3).isLt⟩

/-- Class `kk`'s payload at a slab index is the pooled indicator at the block index under it. -/
theorem pool_piece_eq (x0 : Vec Ideal S1x1024x1024 .i32) (kk : Fin k0_t1_loop.trips) (hk : kk.val < 4) (x : S1x1x256x256.Idx) :
    k0_pay1 (F := Ideal) x0 kk x
      = poolBlock x0 ((Rect.unit (s := S1x4x256x256) (k0_off1 kk) S1x1x256x256.size (k0_off1_inb kk)).emb x) := by
  have h0 : (x 0).val < 1 := (x 0).isLt
  have h1 : (x 1).val < 1 := (x 1).isLt
  obtain ⟨p', q', rfl⟩ : ∃ p' q' : Fin 256, x = ix4 (0 : Fin 1) (0 : Fin 1) p' q' :=
    ⟨⟨(x 2).val, (x 2).isLt⟩, ⟨(x 3).val, (x 3).isLt⟩, funext fun a => by
      match a with
      | ⟨0, _⟩ => exact Fin.ext (by show (x 0).val = 0; omega)
      | ⟨1, _⟩ => exact Fin.ext (by show (x 1).val = 0; omega)
      | ⟨2, _⟩ => exact Fin.ext rfl
      | ⟨3, _⟩ => exact Fin.ext rfl⟩
  rw [pay_pool x0 kk hk p' q']
  unfold poolBlock
  have e := k0_off1_eq kk
  refine congr (congr (congrArg (Cert.Spec.pool fun h w => x0 (ix3 (0 : Fin 1) h w)) (Fin.ext ?_)) (Fin.ext ?_)) (Fin.ext ?_)
  · show kk.val = k0_off1 kk 1 + 1 * 0
    rw [e]; rfl
  · show p'.val = k0_off1 kk 2 + 1 * p'.val
    rw [e]; show p'.val = 0 + 1 * p'.val; omega
  · show q'.val = k0_off1 kk 3 + 1 * q'.val
    rw [e]; show q'.val = 0 + 1 * q'.val; omega

/-- THE OUTPUT BLOCK AT AN INDEX: class `k`'s slab at `(p, q)` holds the 4 × 4 block average of class `k`'s indicator. -/
theorem out0_1_apply (c : Dev nD) (i : grid0.Coords) (arg1 : Memref sig .tc .vmem S1x1024x1024 .i32) (harg1 : arg1.IsWhole)
    (arg2 : Memref sig .tc .vmem S1x4x256x256 .f32) (harg2 : arg2.IsWhole) (x0 : Vec Ideal S1x1024x1024 .i32) (k : Fin 4) (p q : Fin 256) :
    Cert.KernelIdeal.Hand.out0_1 (F := Ideal) c i arg1 harg1 arg2 harg2 x0 (ix4 (0 : Fin 1) k p q)
      = Cert.Spec.pool (fun h w => x0 (ix3 (0 : Fin 1) h w)) k p q := by
  unfold Cert.KernelIdeal.Hand.out0_1
  rw [View.read_writes_eq_canon _ _ _ (cover0_1 c i arg1 harg1 arg2 harg2 x0)]
  refine (View.canon_apply_of_pieces (poolBlock x0) _ ?_ (ix4 (0 : Fin 1) k p q) (cover0_1 c i arg1 harg1 arg2 harg2 x0 _)).trans rfl
  intro pc hpc x
  rw [pool_run_eq] at hpc
  obtain ⟨kk, rfl⟩ := pool_mem_pb Variants.none c none i arg1 harg1 arg2 harg2 x0 _ le_rfl pc hpc
  exact pool_piece_eq x0 kk (Nat.lt_of_lt_of_le kk.isLt k0_t1_abs.2.1) x

end Cert.KernelIdeal.Val

end
-- ==== Proof.Val1.lean ====
/-
  What the loss kernel's body leaves in its accumulator, and in its output block, at a grid point.

  One trip of the class loop stores, over the whole 1 × 1 accumulator, the accumulator's entry plus the band's sum over
  1024 query patches and 256 pooled patches of the squared difference between the given attention and the target
  attention of class k; the loads of trip k read slab k of the pooled map and of the attention. A store over the
  whole accumulator leaves its payload whatever was stored before, so after the four trips the entry is the entry
  the loop found plus the four classes' sums, added in order. At the first grid point the loop finds zero; at the
  last the output block receives the entry times 2^-25.
-/
import proofs.«167937_j47399259079182_2_alg».proof.Proof.KI.Reg1
import proofs.«167937_j47399259079182_2_alg».proof.Proof.Payloads
import Idealize.ShloMosaic.Lib.Pipeline.Value
import Idealize.ShloMosaic.Lib.ValueIdx

set_option maxRecDepth 16384

noncomputable section

namespace Cert.KernelIdeal.Val

open BigOperators
open Cert.KernelIdeal Cert.KernelIdeal.Gen Cert.KernelIdeal.Hand
open Idealize.ShloMosaic Idealize.ShloMosaic.TcCoe Idealize.ShloMosaic.ValueIdx
open Idealize.SL Idealize.SL.Sem

open Cert.KernelIdeal.Pay

/-- One class's band sum of squared differences, from the point's label block, pooled block and attention block. -/
def tileK (x0 : Vec Ideal S1x256x1024 .i32) (x1 : Vec Ideal S1x4x256x256 .f32) (x2 : Vec Ideal S1x4x1024x256 .f32) (k : Fin 4) : EReal :=
  ∑ r : Fin 1024, ∑ m : Fin 256,
    (x2 (ix4 (0 : Fin 1) k r m) - Cert.Spec.attOf (fun kk : Fin 256 => Cert.Spec.ind (x0 (ix3 (0 : Fin 1) (⟨16 * (r.val / 64) + kk.val / 16, by omega⟩ : Fin 256) (⟨16 * (r.val % 64) + kk.val % 16, by omega⟩ : Fin 1024))) k) (fun i j => x1 (ix4 (0 : Fin 1) k i j)) m)
    * (x2 (ix4 (0 : Fin 1) k r m) - Cert.Spec.attOf (fun kk : Fin 256 => Cert.Spec.ind (x0 (ix3 (0 : Fin 1) (⟨16 * (r.val / 64) + kk.val / 16, by omega⟩ : Fin 256) (⟨16 * (r.val % 64) + kk.val % 16, by omega⟩ : Fin 1024))) k) (fun i j => x1 (ix4 (0 : Fin 1) k i j)) m)

section Generic

variable {F : FTy → Type} [FloatOps F]

theorem hz2 : (![0, 0] : Fin S1x1.rank → Nat) = fun _ => 0 := by
  funext a; match a with | ⟨0, _⟩ => rfl | ⟨1, _⟩ => rfl
theorem hz3 : (![0, 0, 0] : Fin S1x256x1024.rank → Nat) = fun _ => 0 := by
  funext a; match a with | ⟨0, _⟩ => rfl | ⟨1, _⟩ => rfl | ⟨2, _⟩ => rfl

/-- A store over the whole 1 × 1 block, last, leaves its payload whatever the earlier stores and contents were. -/
theorem read_head {κ : Kind} {sp : Space} (v : View sig κ sp S1x1 .f32) (f : v.ty.Contents (Elt F))
    (w : S1x1.Idx → Elt F .f32) (L : List (View.Piece (Elt F) S1x1 .f32)) :
    v.read (Elt F) (v.writes (Elt F) f ((⟨Rect.unit (s := S1x1) ![0, 0] S1x1.size inb_S1x1_S1x1_0_0, w⟩ : View.Piece (Elt F) S1x1 .f32) :: L)) = w := by
  rw [View.read_writes_eq_canon _ _ _ (fun y => ⟨_, List.mem_cons_self, View.mem_set_unit_zero hz2 inb_S1x1_S1x1_0_0 y⟩)]
  exact View.canon_cons_unit_zero hz2 _ w L

/-- A load of the whole 1 × 1 block reads the contents' entry. -/
theorem load_unit (κ : Kind) (sp : Space) (v : View sig κ sp S1x1 .f32) (f : v.ty.Contents (Elt F)) :
    View.readAt (Elt F) v (Rect.unit (s := S1x1) ![0, 0] S1x1.size inb_S1x1_S1x1_0_0).toLoadRect f (ix2 (0 : Fin 1) (0 : Fin 1))
      = v.read (Elt F) f (ix2 (0 : Fin 1) (0 : Fin 1)) := by
  show v.read (Elt F) f _ = _
  refine congrArg (v.read (Elt F) f) (funext fun a => Fin.ext ?_)
  match a with | ⟨0, _⟩ => rfl | ⟨1, _⟩ => rfl

/-- One trip of the class loop stores, over the whole accumulator, the accumulation payload of its three loads. -/
theorem tripL_eq (𝒱 : Variants) (bd : Option 𝒱.V) (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (v5 : Vec F S1x256x1024 .i32)
    (X3 : BufTy.Contents (Elt F) arg3.view.ty) (X4 : BufTy.Contents (Elt F) arg4.view.ty) (k : Fin k1_t1_loop.trips)
    (f : BufTy.Contents (Elt F) arg6.view.ty) :
    tripL_k1_t1 (F := F) 𝒱 c bd i arg2 harg2 arg3 harg3 arg4 harg4 arg5 harg5 arg6 harg6 v5 X3 X4 k f
      = [⟨Rect.unit (s := S1x1) ![0, 0] S1x1.size inb_S1x1_S1x1_0_0,
          k1_pay2 v5 k (View.readAt (Elt F) arg3.view (Rect.unit (s := S1x4x256x256) (k1_off1 k) S1x1x256x256.size (k1_off1_inb k)).toLoadRect X3)
            (View.readAt (Elt F) arg4.view (Rect.unit (s := S1x4x1024x256) (k1_off2 k) S1x1x1024x256.size (k1_off2_inb k)).toLoadRect X4)
            (View.readAt (Elt F) arg6.view (Rect.unit (s := S1x1) ![0, 0] S1x1.size inb_S1x1_S1x1_0_0).toLoadRect f)⟩] := by
  unfold tripL_k1_t1 trip_k1_t1
  rfl

/-- The load of the whole label block reads it. -/
theorem ld5 (arg2 : Memref sig .tc .vmem S1x256x1024 .i32) (harg2 : arg2.IsWhole) (x0 : Vec F S1x256x1024 .i32) :
    View.readAt (Elt F) arg2.view (Rect.unit (s := S1x256x1024) ![0, 0, 0] S1x256x1024.size inb_S1x256x1024_S1x256x1024_0_0_0).toLoadRect (harg2.unread x0) = x0 := by
  show View.ld (arg2.view.read (Elt F) (harg2.unread x0)) (Rect.unit (s := S1x256x1024) ![0, 0, 0] S1x256x1024.size inb_S1x256x1024_S1x256x1024_0_0_0) = x0
  rw [harg2.read_unread]
  exact View.ld_unit_zero hz3 _ x0

/-- Trip k's load of the pooled map reads slab k. -/
theorem ld21 (arg3 : Memref sig .tc .vmem S1x4x256x256 .f32) (harg3 : arg3.IsWhole) (x1 : Vec F S1x4x256x256 .f32)
    (k : Fin k1_t1_loop.trips) (hk : k.val < 4) (a b : Fin 256) :
    View.readAt (Elt F) arg3.view (Rect.unit (s := S1x4x256x256) (k1_off1 k) S1x1x256x256.size (k1_off1_inb k)).toLoadRect (harg3.unread x1) (ix4 (0 : Fin 1) (0 : Fin 1) a b)
      = x1 (ix4 (0 : Fin 1) (⟨k.val, hk⟩ : Fin 4) a b) := by
  show arg3.view.read (Elt F) (harg3.unread x1) _ = _
  rw [harg3.read_unread]
  refine congrArg x1 (funext fun d => Fin.ext ?_)
  show (k1_off1 k) d + 1 * ((ix4 (0 : Fin 1) (0 : Fin 1) a b) d).val = ((ix4 (0 : Fin 1) (⟨k.val, hk⟩ : Fin 4) a b) d).val
  rw [k1_off1_eq]
  match d with
  | ⟨0, _⟩ => rfl
  | ⟨1, _⟩ => show k.val + 1 * 0 = k.val; omega
  | ⟨2, _⟩ => show 0 + 1 * a.val = a.val; omega
  | ⟨3, _⟩ => show 0 + 1 * b.val = b.val; omega

/-- Trip k's load of the attention reads slab k. -/
theorem ld32 (arg4 : Memref sig .tc .vmem S1x4x1024x256 .f32) (harg4 : arg4.IsWhole) (x2 : Vec F S1x4x1024x256 .f32)
    (k : Fin k1_t1_loop.trips) (hk : k.val < 4) (r : Fin 1024) (m : Fin 256) :
    View.readAt (Elt F) arg4.view (Rect.unit (s := S1x4x1024x256) (k1_off2 k) S1x1x1024x256.size (k1_off2_inb k)).toLoadRect (harg4.unread x2) (ix4 (0 : Fin 1) (0 : Fin 1) r m)
      = x2 (ix4 (0 : Fin 1) (⟨k.val, hk⟩ : Fin 4) r m) := by
  show arg4.view.read (Elt F) (harg4.unread x2) _ = _
  rw [harg4.read_unread]
  refine congrArg x2 (funext fun d => Fin.ext ?_)
  show (k1_off2 k) d + 1 * ((ix4 (0 : Fin 1) (0 : Fin 1) r m) d).val = ((ix4 (0 : Fin 1) (⟨k.val, hk⟩ : Fin 4) r m) d).val
  rw [k1_off2_eq]
  match d with
  | ⟨0, _⟩ => rfl
  | ⟨1, _⟩ => show k.val + 1 * 0 = k.val; omega
  | ⟨2, _⟩ => show 0 + 1 * r.val = r.val; omega
  | ⟨3, _⟩ => show 0 + 1 * m.val = m.val; omega

theorem trips4 : k1_t1_loop.trips = 4 := by decide

end Generic

section AtIdeal

/-- The pieces of the first n trips, over the contents G the loop finds in the accumulator. -/
abbrev PB (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (x0 : Vec Ideal S1x256x1024 .i32) (x1 : Vec Ideal S1x4x256x256 .f32) (x2 : Vec Ideal S1x4x1024x256 .f32)
    (G : BufTy.Contents (Elt Ideal) arg6.view.ty) (n : ℕ) : List (View.Piece (Elt Ideal) S1x1 .f32) :=
  pb_k1_t1 (F := Ideal) Variants.none c none i arg2 harg2 arg3 harg3 arg4 harg4 arg5 harg5 arg6 harg6 (View.readAt (Elt Ideal) arg2.view (Rect.unit (s := S1x256x1024) ![0, 0, 0] S1x256x1024.size inb_S1x256x1024_S1x256x1024_0_0_0).toLoadRect (harg2.unread x0)) (harg3.unread x1) (harg4.unread x2) G n

/-- ONE TRIP: if the accumulator's entry before trip k is a, then after it (read through any view, over any contents)
    it is a plus class k's band sum. -/
theorem step (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (x0 : Vec Ideal S1x256x1024 .i32) (x1 : Vec Ideal S1x4x256x256 .f32) (x2 : Vec Ideal S1x4x1024x256 .f32)
    (G : BufTy.Contents (Elt Ideal) arg6.view.ty) (k : Fin k1_t1_loop.trips) (hk : k.val < 4) (a : EReal)
    (ha : arg6.view.read (Elt Ideal) (arg6.view.writes (Elt Ideal) G (PB c i arg2 harg2 arg3 harg3 arg4 harg4 arg5 harg5 arg6 harg6 x0 x1 x2 G k.val)) (ix2 (0 : Fin 1) (0 : Fin 1)) = a)
    {κ : Kind} {sp : Space} (v' : View sig κ sp S1x1 .f32) (f' : v'.ty.Contents (Elt Ideal)) :
    v'.read (Elt Ideal) (v'.writes (Elt Ideal) f' (PB c i arg2 harg2 arg3 harg3 arg4 harg4 arg5 harg5 arg6 harg6 x0 x1 x2 G (k.val + 1))) (ix2 (0 : Fin 1) (0 : Fin 1))
      = a + tileK x0 x1 x2 ⟨k.val, hk⟩ := by
  unfold PB
  rw [pb_k1_t1_succ, tripL_eq, List.singleton_append, read_head, pay_acc _ k hk, load_unit]
  refine congrArg₂ (· + ·) ha ?_
  rw [ld5]
  unfold tileK
  have e21 : (fun a b : Fin 256 => View.readAt (Elt Ideal) arg3.view (Rect.unit (s := S1x4x256x256) (k1_off1 k) S1x1x256x256.size (k1_off1_inb k)).toLoadRect (harg3.unread x1) (ix4 (0 : Fin 1) (0 : Fin 1) a b))
      = fun a b : Fin 256 => x1 (ix4 (0 : Fin 1) (⟨k.val, hk⟩ : Fin 4) a b) :=
    funext fun a => funext fun b => ld21 arg3 harg3 x1 k hk a b
  rw [e21]
  refine Finset.sum_congr rfl fun r _ => Finset.sum_congr rfl fun m _ => ?_
  rw [ld32 arg4 harg4 x2 k hk r m]

/-- FOUR TRIPS: from an entry a the loop finds, the entry after the loop is a plus the four classes' band sums in order. -/
theorem four (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (x0 : Vec Ideal S1x256x1024 .i32) (x1 : Vec Ideal S1x4x256x256 .f32) (x2 : Vec Ideal S1x4x1024x256 .f32)
    (G : BufTy.Contents (Elt Ideal) arg6.view.ty) (a : EReal)
    (ha : arg6.view.read (Elt Ideal) G (ix2 (0 : Fin 1) (0 : Fin 1)) = a)
    {κ : Kind} {sp : Space} (v' : View sig κ sp S1x1 .f32) (f' : v'.ty.Contents (Elt Ideal)) :
    v'.read (Elt Ideal) (v'.writes (Elt Ideal) f' (PB c i arg2 harg2 arg3 harg3 arg4 harg4 arg5 harg5 arg6 harg6 x0 x1 x2 G 4)) (ix2 (0 : Fin 1) (0 : Fin 1))
      = (((a + tileK x0 x1 x2 0) + tileK x0 x1 x2 1) + tileK x0 x1 x2 2) + tileK x0 x1 x2 3 := by
  have h0 : (0 : ℕ) < k1_t1_loop.trips := by rw [trips4]; omega
  have h1 : (1 : ℕ) < k1_t1_loop.trips := by rw [trips4]; omega
  have h2 : (2 : ℕ) < k1_t1_loop.trips := by rw [trips4]; omega
  have h3 : (3 : ℕ) < k1_t1_loop.trips := by rw [trips4]; omega
  have e0 : PB c i arg2 harg2 arg3 harg3 arg4 harg4 arg5 harg5 arg6 harg6 x0 x1 x2 G 0 = [] := by unfold PB; rw [pb_k1_t1.eq_1]
  have ha0 : arg6.view.read (Elt Ideal) (arg6.view.writes (Elt Ideal) G (PB c i arg2 harg2 arg3 harg3 arg4 harg4 arg5 harg5 arg6 harg6 x0 x1 x2 G 0)) (ix2 (0 : Fin 1) (0 : Fin 1)) = a := by
    rw [e0]; exact ha
  have s1 := step c i arg2 harg2 arg3 harg3 arg4 harg4 arg5 harg5 arg6 harg6 x0 x1 x2 G ⟨0, h0⟩ (Nat.lt_of_lt_of_eq h0 trips4) a ha0 arg6.view G
  have s2 := step c i arg2 harg2 arg3 harg3 arg4 harg4 arg5 harg5 arg6 harg6 x0 x1 x2 G ⟨1, h1⟩ (Nat.lt_of_lt_of_eq h1 trips4) _ s1 arg6.view G
  have s3 := step c i arg2 harg2 arg3 harg3 arg4 harg4 arg5 harg5 arg6 harg6 x0 x1 x2 G ⟨2, h2⟩ (Nat.lt_of_lt_of_eq h2 trips4) _ s2 arg6.view G
  exact step c i arg2 harg2 arg3 harg3 arg4 harg4 arg5 harg5 arg6 harg6 x0 x1 x2 G ⟨3, h3⟩ (Nat.lt_of_lt_of_eq h3 trips4) _ s3 v' f'

/-! ## The three cases of the body -/

theorem runA_eq (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i)
    (x0 : Vec Ideal S1x256x1024 .i32) (x1 : Vec Ideal S1x4x256x256 .f32) (x2 : Vec Ideal S1x4x1024x256 .f32) :
    (kernelRun1_A (F := Ideal) c i arg2 harg2 arg3 harg3 arg4 harg4 arg5 harg5 arg6 harg6 hc0 hc1 x0 x1 x2).2.1
      = PB c i arg2 harg2 arg3 harg3 arg4 harg4 arg5 harg5 arg6 harg6 x0 x1 x2 (arg6.view.writes (Elt Ideal) arg6.view.junk [⟨Rect.unit (s := S1x1) ![0, 0] S1x1.size inb_S1x1_S1x1_0_0, k1_pay1 (F := Ideal)⟩]) 4
        ++ [⟨Rect.unit (s := S1x1) ![0, 0] S1x1.size inb_S1x1_S1x1_0_0, k1_pay1 (F := Ideal)⟩] := by
  unfold kernelRun1_A
  rfl

theorem runB_eq (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i)
    (x0 : Vec Ideal S1x256x1024 .i32) (x1 : Vec Ideal S1x4x256x256 .f32) (x2 : Vec Ideal S1x4x1024x256 .f32) (xs0 : Vec Ideal S1x1 .f32) :
    (kernelRun1_B (F := Ideal) c i arg2 harg2 arg3 harg3 arg4 harg4 arg5 harg5 arg6 harg6 hc0 hc1 x0 x1 x2 xs0).2.1 = PB c i arg2 harg2 arg3 harg3 arg4 harg4 arg5 harg5 arg6 harg6 x0 x1 x2 (harg6.unread xs0) 4 := by
  unfold kernelRun1_B
  rfl

theorem runC_eq (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i)
    (x0 : Vec Ideal S1x256x1024 .i32) (x1 : Vec Ideal S1x4x256x256 .f32) (x2 : Vec Ideal S1x4x1024x256 .f32) (xs0 : Vec Ideal S1x1 .f32) :
    (kernelRun1_C (F := Ideal) c i arg2 harg2 arg3 harg3 arg4 harg4 arg5 harg5 arg6 harg6 hc0 hc1 x0 x1 x2 xs0).2.1 = PB c i arg2 harg2 arg3 harg3 arg4 harg4 arg5 harg5 arg6 harg6 x0 x1 x2 (harg6.unread xs0) 4 := by
  unfold kernelRun1_C
  rfl

theorem runC_out_eq (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i)
    (x0 : Vec Ideal S1x256x1024 .i32) (x1 : Vec Ideal S1x4x256x256 .f32) (x2 : Vec Ideal S1x4x1024x256 .f32) (xs0 : Vec Ideal S1x1 .f32) :
    (kernelRun1_C (F := Ideal) c i arg2 harg2 arg3 harg3 arg4 harg4 arg5 harg5 arg6 harg6 hc0 hc1 x0 x1 x2 xs0).1
      = [⟨Rect.unit (s := S1x1) ![0, 0] S1x1.size inb_S1x1_S1x1_0_0,
          k1_pay3 (F := Ideal) (View.readAt (Elt Ideal) arg6.view (Rect.unit (s := S1x1) ![0, 0] S1x1.size inb_S1x1_S1x1_0_0).toLoadRect
            (arg6.view.writes (Elt Ideal) (harg6.unread xs0) (PB c i arg2 harg2 arg3 harg3 arg4 harg4 arg5 harg5 arg6 harg6 x0 x1 x2 (harg6.unread xs0) 4)))⟩] := by
  unfold kernelRun1_C
  rfl

/-- Case A: at the first grid point the accumulator is left at the four classes' band sums, added from zero. -/
theorem sout1_A_0_apply (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : cond1_0 i) (hc1 : ¬cond1_1 i)
    (x0 : Vec Ideal S1x256x1024 .i32) (x1 : Vec Ideal S1x4x256x256 .f32) (x2 : Vec Ideal S1x4x1024x256 .f32) :
    sout1_A_0 (F := Ideal) c i arg2 harg2 arg3 harg3 arg4 harg4 arg5 harg5 arg6 harg6 hc0 hc1 x0 x1 x2 (ix2 (0 : Fin 1) (0 : Fin 1))
      = (((0 + tileK x0 x1 x2 0) + tileK x0 x1 x2 1) + tileK x0 x1 x2 2) + tileK x0 x1 x2 3 := by
  unfold sout1_A_0
  rw [runA_eq, View.writes_append]
  refine four c i arg2 harg2 arg3 harg3 arg4 harg4 arg5 harg5 arg6 harg6 x0 x1 x2 _ 0 ?_ _ _
  rw [read_head]
  exact pay_zero

/-- Case B: at a middle grid point the four classes' band sums are added to what the point before left. -/
theorem sout1_B_0_apply (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : ¬cond1_1 i)
    (x0 : Vec Ideal S1x256x1024 .i32) (x1 : Vec Ideal S1x4x256x256 .f32) (x2 : Vec Ideal S1x4x1024x256 .f32) (xs0 : Vec Ideal S1x1 .f32) :
    sout1_B_0 (F := Ideal) c i arg2 harg2 arg3 harg3 arg4 harg4 arg5 harg5 arg6 harg6 hc0 hc1 x0 x1 x2 xs0 (ix2 (0 : Fin 1) (0 : Fin 1))
      = (((xs0 (ix2 (0 : Fin 1) (0 : Fin 1)) + tileK x0 x1 x2 0) + tileK x0 x1 x2 1) + tileK x0 x1 x2 2) + tileK x0 x1 x2 3 := by
  unfold sout1_B_0
  rw [runB_eq]
  refine four c i arg2 harg2 arg3 harg3 arg4 harg4 arg5 harg5 arg6 harg6 x0 x1 x2 _ _ ?_ _ _
  rw [harg6.read_unread]

/-- Case C, the accumulator: as at a middle point. -/
theorem sout1_C_0_apply (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i)
    (x0 : Vec Ideal S1x256x1024 .i32) (x1 : Vec Ideal S1x4x256x256 .f32) (x2 : Vec Ideal S1x4x1024x256 .f32) (xs0 : Vec Ideal S1x1 .f32) :
    sout1_C_0 (F := Ideal) c i arg2 harg2 arg3 harg3 arg4 harg4 arg5 harg5 arg6 harg6 hc0 hc1 x0 x1 x2 xs0 (ix2 (0 : Fin 1) (0 : Fin 1))
      = (((xs0 (ix2 (0 : Fin 1) (0 : Fin 1)) + tileK x0 x1 x2 0) + tileK x0 x1 x2 1) + tileK x0 x1 x2 2) + tileK x0 x1 x2 3 := by
  unfold sout1_C_0
  rw [runC_eq]
  refine four c i arg2 harg2 arg3 harg3 arg4 harg4 arg5 harg5 arg6 harg6 x0 x1 x2 _ _ ?_ _ _
  rw [harg6.read_unread]

/-- Case C, the output block: the accumulator's final entry times 2^-25. -/
theorem out1_C_3_apply (c : Dev nD) (i : grid1.Coords) (arg2 : Memref sig .tc .vmem S1x256x1024 .i32) (harg2 : arg2.IsWhole) (arg3 : Memref sig .tc .vmem S1x4x256x256 .f32) (harg3 : arg3.IsWhole) (arg4 : Memref sig .tc .vmem S1x4x1024x256 .f32) (harg4 : arg4.IsWhole) (arg5 : Memref sig .tc .vmem S1x1 .f32) (harg5 : arg5.IsWhole) (arg6 : Memref sig .tc .vmem S1x1 .f32) (harg6 : arg6.IsWhole) (hc0 : ¬cond1_0 i) (hc1 : cond1_1 i)
    (x0 : Vec Ideal S1x256x1024 .i32) (x1 : Vec Ideal S1x4x256x256 .f32) (x2 : Vec Ideal S1x4x1024x256 .f32) (xs0 : Vec Ideal S1x1 .f32) :
    out1_C_3 (F := Ideal) c i arg2 harg2 arg3 harg3 arg4 harg4 arg5 harg5 arg6 harg6 hc0 hc1 x0 x1 x2 xs0 (ix2 (0 : Fin 1) (0 : Fin 1))
      = ((((xs0 (ix2 (0 : Fin 1) (0 : Fin 1)) + tileK x0 x1 x2 0) + tileK x0 x1 x2 1) + tileK x0 x1 x2 2) + tileK x0 x1 x2 3)
          * ((1 / 33554432 : ℝ) : EReal) := by
  unfold out1_C_3
  rw [runC_out_eq, read_head, pay_out, load_unit]
  refine congrArg (· * ((1 / 33554432 : ℝ) : EReal)) ?_
  refine four c i arg2 harg2 arg3 harg3 arg4 harg4 arg5 harg5 arg6 harg6 x0 x1 x2 _ _ ?_ _ _
  rw [harg6.read_unread]

end AtIdeal

end Cert.KernelIdeal.Val

end
-- ==== Proof.AccTotal.lean ====
/-
  The running sum over the 128 steps is the whole sum.

  The extended reals are an additive commutative monoid. The running sum after n steps is the sum of the first n step
  terms; the step index s = 16 b + 4 t + c runs through Fin 8 × Fin 4 × Fin 4 in row-major order, so the sum over the
  128 steps is the iterated sum over b, t, c; the sums over t and c commute; and the query patches l = 1024 t + r run
  through Fin 4096 as (t, r) runs through Fin 4 × Fin 1024.
-/
import proofs.«167937_j47399259079182_2_alg».proof.Proof.Spec
import Mathlib.Logic.Equiv.Fin.Basic
import Mathlib.Data.Fintype.BigOperators
import Mathlib.Algebra.BigOperators.Fin

noncomputable section

namespace Cert.Spec

open BigOperators

/-- A sum over `Fin N` with `N = m n` is the iterated sum over `Fin m` and `Fin n`, the index being `n a + b`. -/
theorem sum_fin_split {M : Type*} [AddCommMonoid M] {m n N : ℕ} (hN : m * n = N) (f : Fin N → M) :
    ∑ i : Fin N, f i = ∑ a : Fin m, ∑ b : Fin n, f (Fin.cast hN (finProdFinEquiv (a, b))) := by
  subst hN
  rw [← finProdFinEquiv.sum_comp f, Fintype.sum_prod_type]
  rfl

/-- The term added at step `s`. -/
def step (tg : Fin 8 → Img) (av : Fin 8 → Fin 4 → Fin 4096 → Fin 256 → EReal) (s : ℕ) : EReal :=
  if h : s < 128 then
    tile (tg ⟨s / 16, by omega⟩) ⟨s % 4, by omega⟩ (av ⟨s / 16, by omega⟩ ⟨s % 4, by omega⟩) ⟨s / 4 % 4, by omega⟩
  else 0

/-- The running sum after `n` steps is the sum of the first `n` step terms. -/
theorem acc_eq_sum (tg : Fin 8 → Img) (av : Fin 8 → Fin 4 → Fin 4096 → Fin 256 → EReal) (n : ℕ) :
    acc tg av n = ∑ s ∈ Finset.range n, step tg av s := by
  induction n with
  | zero => simp [acc]
  | succ n ih => rw [Finset.sum_range_succ, ← ih]; rfl

/-- Step `s = 16 b + 4 t + c` adds band `t` of class `c` of image `b`. -/
theorem step_of (tg : Fin 8 → Img) (av : Fin 8 → Fin 4 → Fin 4096 → Fin 256 → EReal) (s : ℕ)
    (b : Fin 8) (t c : Fin 4) (hs : s = c.val + 4 * t.val + 16 * b.val) :
    step tg av s = tile (tg b) c (av b c) t := by
  have h : s < 128 := by omega
  have hb : (⟨s / 16, by omega⟩ : Fin 8) = b := Fin.ext (by simp only; omega)
  have ht : (⟨s / 4 % 4, by omega⟩ : Fin 4) = t := Fin.ext (by simp only; omega)
  have hc : (⟨s % 4, by omega⟩ : Fin 4) = c := Fin.ext (by simp only; omega)
  simp only [step, dif_pos h, hb, ht, hc]

theorem acc_total (tg : Fin 8 → Img) (av : Fin 8 → Fin 4 → Fin 4096 → Fin 256 → EReal) :
    acc tg av 128 = total tg av := by
  rw [acc_eq_sum, Finset.sum_range, sum_fin_split (m := 8) (n := 16) (by norm_num)]
  unfold total
  refine Finset.sum_congr rfl fun b _ => ?_
  rw [sum_fin_split (m := 4) (n := 4) (by norm_num : 4 * 4 = 16), Finset.sum_comm]
  refine Finset.sum_congr rfl fun c _ => ?_
  rw [sum_fin_split (m := 4) (n := 1024) (by norm_num : 4 * 1024 = 4096)]
  refine Finset.sum_congr rfl fun t _ => ?_
  rw [step_of tg av _ b t c (by simp only [Fin.coe_cast, finProdFinEquiv_apply_val])]
  unfold tile
  refine Finset.sum_congr rfl fun r _ => ?_
  have hl : lOf t r = Fin.cast (by norm_num : 4 * 1024 = 4096) (finProdFinEquiv (t, r)) :=
    Fin.ext (by simp only [lOf, Fin.coe_cast, finProdFinEquiv_apply_val]; omega)
  rw [hl]

end Cert.Spec

end
-- ==== Proof.Val.lean ====
/-
  What the kernel's program computes, at the ideal instance, as a function of its arguments.

  The pooling call leaves in its result array, at (image b, class k, p, q), the 4 × 4 block average of the class
  indicator (`final_pool`). At grid point t = 4 b + s of the loss call the three input blocks are the label band
  (rows 256 s … 256 s + 255 of image b), the pooled map of image b, and rows 1024 s … 1024 s + 1023 of image b's
  attention, so the four class trips add the four band sums `Spec.tile` of step 16 b + 4 s + k, and the accumulator
  after point t is the running sum `Spec.acc` after 4 (t + 1) steps (`acc_at`). The last point stores the
  accumulator times 2^-25; with `Spec.acc_total` that is the loss (`final_loss`), which the closing reshape hands on
  as the scalar result.
-/
import proofs.«167937_j47399259079182_2_alg».proof.Proof.KI.Main
import proofs.«167937_j47399259079182_2_alg».proof.Proof.Val0
import proofs.«167937_j47399259079182_2_alg».proof.Proof.Val1
import proofs.«167937_j47399259079182_2_alg».proof.Proof.AccTotal
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The label maps and the attentions as launched, by coordinates. -/
def tgOf (c : Dev nD) : Fin 8 → Cert.Spec.Img := fun b h w => m ((c : Thread nD τ).loc main_arg1) (ix3 b h w)
def avOf (c : Dev nD) : Fin 8 → Fin 4 → Fin 4096 → Fin 256 → EReal := fun b k l q => m ((c : Thread nD τ).loc main_arg2) (ix4 b k l q)

/-- The pooled indicators as one array. -/
def poolArr (c : Dev nD) : Buf (Elt Ideal) ((c : Thread nD τ).loc main_v0) :=
  fun i => Cert.Spec.pool (tgOf m c (i 0)) (i 1) (i 2) (i 3)

/-! ## The pooling call -/

/-- The pooling call's block indices at point `t`: image `t`, everything else whole. -/
theorem idx0 : ∀ t : Fin cfg0.N, win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

theorem Va_arg1 (c : Dev nD) : Va m ρ c main_arg1 = m ((c : Thread nD τ).loc main_arg1) := rfl

/-- The label block at point `t` is image `t`. -/
theorem iblk0_apply (c : Dev nD) (t : Fin cfg0.N) (ht : t.val < 8) (h w : Fin 1024) :
    iblk0 (Va m ρ) c 0 t (ix3 (0 : Fin 1) h w) = tgOf m c ⟨t.val, ht⟩ h w := by
  obtain ⟨e0, e1, e2, -⟩ := idx0 t
  show Va m ρ c main_arg1 (((cfg0.win 0).blk t).view.emb (ix3 (0 : Fin 1) h w)) = m ((c : Thread nD τ).loc main_arg1) (ix3 ⟨t.val, ht⟩ h w)
  rw [Va_arg1]
  refine congrArg _ ?_
  funext a; apply Fin.ext
  match a with
  | ⟨0, _⟩ => show win0_0.index t (0 : Fin 3) * 1 + 1 * 0 = t.val; omega
  | ⟨1, _⟩ => show win0_0.index t (1 : Fin 3) * 1024 + 1 * h.val = h.val; omega
  | ⟨2, _⟩ => show win0_0.index t (2 : Fin 3) * 1024 + 1 * w.val = w.val; omega

/-- What point `t` of the pooling call writes back is block `t` of the pooled array. -/
theorem flushed0_eq (c : Dev nD) (t : Fin cfg0.N) :
    (dat0 (Va m ρ) c).flushed 1 t = ((cfg0.win 1).blk t).view.read (Elt Ideal) (poolArr m c) := by
  have ht : t.val < 8 := lt_of_lt_of_eq t.isLt (show cfg0.N = 8 from N_0)
  obtain ⟨-, -, -, e0, e1, e2, e3⟩ := idx0 t
  show (cfg0.win 1).cut (grid0.coords t) ((dat0 (Va m ρ) c).after 1 t) = _
  rw [after0_1]
  unfold outsAt0
  funext y
  obtain ⟨z, k, p, q, rfl⟩ : ∃ (z : Fin 1) (k : Fin 4) (p q : Fin 256), y = ix4 z k p q := ⟨y 0, y 1, y 2, y 3, eq_ix4 y⟩
  obtain rfl : z = 0 := Subsingleton.elim _ _
  show out0_1 c (grid0.coords t) (ms0_0 t) (hs0_0 t) (ms0_1 t) (hs0_1 t) (iblk0 (Va m ρ) c 0 t) (ix4 (0 : Fin 1) k p q)
    = poolArr m c (((cfg0.win 1).blk t).view.emb (ix4 (0 : Fin 1) k p q))
  rw [out0_1_apply]
  have hemb : ((cfg0.win 1).blk t).view.emb (ix4 (0 : Fin 1) k p q) = ix4 (⟨t.val, ht⟩ : Fin 8) k p q := by
    funext a; apply Fin.ext
    match a with
    | ⟨0, _⟩ => show win0_1.index t (0 : Fin 4) * 1 + 1 * 0 = t.val; omega
    | ⟨1, _⟩ => show win0_1.index t (1 : Fin 4) * 4 + 1 * k.val = k.val; omega
    | ⟨2, _⟩ => show win0_1.index t (2 : Fin 4) * 256 + 1 * p.val = p.val; omega
    | ⟨3, _⟩ => show win0_1.index t (3 : Fin 4) * 256 + 1 * q.val = q.val; omega
  rw [hemb]
  show _ = Cert.Spec.pool (tgOf m c ⟨t.val, ht⟩) k p q
  refine congrArg (fun g => Cert.Spec.pool g k p q) ?_
  funext h w
  exact iblk0_apply m ρ c t ht h w

theorem mem_blk0 (t : Fin cfg0.N) (i : S8x4x256x256.Idx) :
    i ∈ ((cfg0.win 1).blk t).view.set ↔ ∀ a : Fin 4, win0_1.index t a * S1x4x256x256.size a ≤ (i a).val ∧ (i a).val < win0_1.index t a * S1x4x256x256.size a + S1x4x256x256.size a := by
  show i ∈ ((View.whole main_v0).slice (win0_1.rect t)).set ↔ _
  rw [View.set_slice_whole, Rect.mem_set_unit]
  exact Iff.rfl

/-- THE POOLED ARRAY after the pooling call. -/
theorem final_pool (c : Dev nD) : (dat0 (Va m ρ) c).arrAt 1 cfg0.N = poolArr m c := by
  refine (dat0 (Va m ρ) c).arrAt_eq_of_cover 1 (poolArr m c) (fun t _ => flushed0_eq m ρ c t) fun i => ?_
  have hi0 : (i 0).val < 8 := (i 0).isLt
  have hi1 : (i 1).val < 4 := (i 1).isLt
  have hi2 : (i 2).val < 256 := (i 2).isLt
  have hi3 : (i 3).val < 256 := (i 3).isLt
  refine ⟨⟨(i 0).val, by rw [show cfg0.N = 8 from N_0]; exact hi0⟩, flush0_1 _, ?_⟩
  rw [mem_blk0]
  obtain ⟨-, -, -, e0, e1, e2, e3⟩ := idx0 ⟨(i 0).val, by rw [show cfg0.N = 8 from N_0]; exact hi0⟩
  intro a
  match a with
  | ⟨0, _⟩ => show win0_1.index _ (0 : Fin 4) * 1 ≤ (i 0).val ∧ (i 0).val < win0_1.index _ (0 : Fin 4) * 1 + 1; simp only [] at e0; omega
  | ⟨1, _⟩ => show win0_1.index _ (1 : Fin 4) * 4 ≤ (i 1).val ∧ (i 1).val < win0_1.index _ (1 : Fin 4) * 4 + 4; omega
  | ⟨2, _⟩ => show win0_1.index _ (2 : Fin 4) * 256 ≤ (i 2).val ∧ (i 2).val < win0_1.index _ (2 : Fin 4) * 256 + 256; omega
  | ⟨3, _⟩ => show win0_1.index _ (3 : Fin 4) * 256 ≤ (i 3).val ∧ (i 3).val < win0_1.index _ (3 : Fin 4) * 256 + 256; omega

/-! ## The loss call -/

theorem Vb_arg1 (c : Dev nD) : Vb m ρ c main_arg1 = m ((c : Thread nD τ).loc main_arg1) :=
  (Wb_arr m ρ c 0).trans (((dat0 (Va m ρ) c).arrAt_in 0 rfl _).trans (A_eq0 (Va m ρ) c 0))
theorem Vb_arg2 (c : Dev nD) : Vb m ρ c main_arg2 = m ((c : Thread nD τ).loc main_arg2) :=
  Wb_of_ne m ρ c main_arg2 (by decide)
theorem Vb_v0 (c : Dev nD) : Vb m ρ c main_v0 = poolArr m c :=
  (Wb_arr m ρ c 1).trans (final_pool m ρ c)

/-- The loss call's block indices at point `t = 4 b + s`: image `b`; band `s` of the labels and of the attention. -/
theorem idx1 : ∀ t : Fin cfg1.N, win1_0.index t (0 : Fin 3) = t.val / 4 ∧ win1_0.index t (1 : Fin 3) = t.val % 4 ∧ win1_0.index t (2 : Fin 3) = 0
    ∧ win1_1.index t (0 : Fin 4) = t.val / 4 ∧ win1_1.index t (1 : Fin 4) = 0 ∧ win1_1.index t (2 : Fin 4) = 0 ∧ win1_1.index t (3 : Fin 4) = 0
    ∧ win1_2.index t (0 : Fin 4) = t.val / 4 ∧ win1_2.index t (1 : Fin 4) = 0 ∧ win1_2.index t (2 : Fin 4) = t.val % 4 ∧ win1_2.index t (3 : Fin 4) = 0
    ∧ win1_3.index t (0 : Fin 2) = 0 ∧ win1_3.index t (1 : Fin 2) = 0 :=
  (by decide +kernel : ∀ t : Fin grid1.N, _)

/-- The label block at point `t`: rows 256 (t mod 4) … of image t / 4. -/
theorem iblk1_0_apply (c : Dev nD) (t : Fin cfg1.N) (ht : t.val < 32) (h : Fin 256) (w : Fin 1024) :
    iblk1 (Vb m ρ) c 0 t (ix3 (0 : Fin 1) h w) = tgOf m c ⟨t.val / 4, by omega⟩ ⟨256 * (t.val % 4) + h.val, by omega⟩ w := by
  obtain ⟨e0, e1, e2, -⟩ := idx1 t
  show Vb m ρ c main_arg1 (((cfg1.win 0).blk t).view.emb (ix3 (0 : Fin 1) h w)) = m ((c : Thread nD τ).loc main_arg1) (ix3 _ _ w)
  rw [Vb_arg1]
  refine congrArg _ ?_
  funext a; apply Fin.ext
  match a with
  | ⟨0, _⟩ => show win1_0.index t (0 : Fin 3) * 1 + 1 * 0 = t.val / 4; omega
  | ⟨1, _⟩ => show win1_0.index t (1 : Fin 3) * 256 + 1 * h.val = 256 * (t.val % 4) + h.val; omega
  | ⟨2, _⟩ => show win1_0.index t (2 : Fin 3) * 1024 + 1 * w.val = w.val; omega

/-- The pooled block at point `t`: image t / 4 of the pooled array. -/
theorem iblk1_1_apply (c : Dev nD) (t : Fin cfg1.N) (ht : t.val < 32) (k : Fin 4) (p q : Fin 256) :
    iblk1 (Vb m ρ) c 1 t (ix4 (0 : Fin 1) k p q) = Cert.Spec.pool (tgOf m c ⟨t.val / 4, by omega⟩) k p q := by
  obtain ⟨-, -, -, e0, e1, e2, e3, -⟩ := idx1 t
  show Vb m ρ c main_v0 (((cfg1.win 1).blk t).view.emb (ix4 (0 : Fin 1) k p q)) = _
  rw [Vb_v0]
  have hemb : ((cfg1.win 1).blk t).view.emb (ix4 (0 : Fin 1) k p q) = ix4 (⟨t.val / 4, by omega⟩ : Fin 8) k p q := by
    funext a; apply Fin.ext
    match a with
    | ⟨0, _⟩ => show win1_1.index t (0 : Fin 4) * 1 + 1 * 0 = t.val / 4; omega
    | ⟨1, _⟩ => show win1_1.index t (1 : Fin 4) * 4 + 1 * k.val = k.val; omega
    | ⟨2, _⟩ => show win1_1.index t (2 : Fin 4) * 256 + 1 * p.val = p.val; omega
    | ⟨3, _⟩ => show win1_1.index t (3 : Fin 4) * 256 + 1 * q.val = q.val; omega
  rw [hemb]
  rfl

/-- The attention block at point `t`: rows 1024 (t mod 4) … of image t / 4. -/
theorem iblk1_2_apply (c : Dev nD) (t : Fin cfg1.N) (ht : t.val < 32) (k : Fin 4) (r : Fin 1024) (q : Fin 256) :
    iblk1 (Vb m ρ) c 2 t (ix4 (0 : Fin 1) k r q) = avOf m c ⟨t.val / 4, by omega⟩ k ⟨1024 * (t.val % 4) + r.val, by omega⟩ q := by
  obtain ⟨-, -, -, -, -, -, -, e0, e1, e2, e3, -⟩ := idx1 t
  show Vb m ρ c main_arg2 (((cfg1.win 2).blk t).view.emb (ix4 (0 : Fin 1) k r q)) = m ((c : Thread nD τ).loc main_arg2) (ix4 _ k _ q)
  rw [Vb_arg2]
  refine congrArg _ ?_
  funext a; apply Fin.ext
  match a with
  | ⟨0, _⟩ => show win1_2.index t (0 : Fin 4) * 1 + 1 * 0 = t.val / 4; omega
  | ⟨1, _⟩ => show win1_2.index t (1 : Fin 4) * 4 + 1 * k.val = k.val; omega
  | ⟨2, _⟩ => show win1_2.index t (2 : Fin 4) * 1024 + 1 * r.val = 1024 * (t.val % 4) + r.val; omega
  | ⟨3, _⟩ => show win1_2.index t (3 : Fin 4) * 256 + 1 * q.val = q.val; omega

/-- One class trip's band sum over blocks that are band `s` of image `g`, its pooled map and its attention is the
    specification's band sum. -/
theorem tileK_eq_tile (x0 : Vec Ideal S1x256x1024 .i32) (x1 : Vec Ideal S1x4x256x256 .f32) (x2 : Vec Ideal S1x4x1024x256 .f32)
    (g : Cert.Spec.Img) (a : Fin 4096 → Fin 256 → EReal) (k : Fin 4) (s : Fin 4)
    (h0 : ∀ (h : Fin 256) (w : Fin 1024), x0 (ix3 (0 : Fin 1) h w) = g ⟨256 * s.val + h.val, by omega⟩ w)
    (h1 : ∀ p q : Fin 256, x1 (ix4 (0 : Fin 1) k p q) = Cert.Spec.pool g k p q)
    (h2 : ∀ (r : Fin 1024) (q : Fin 256), x2 (ix4 (0 : Fin 1) k r q) = a ⟨1024 * s.val + r.val, by omega⟩ q) :
    tileK x0 x1 x2 k = Cert.Spec.tile g k a s := by
  unfold tileK Cert.Spec.tile
  refine Finset.sum_congr rfl fun r _ => Finset.sum_congr rfl fun q _ => ?_
  have hatt : Cert.Spec.attOf (fun kk : Fin 256 => Cert.Spec.ind (x0 (ix3 (0 : Fin 1) (⟨16 * (r.val / 64) + kk.val / 16, by omega⟩ : Fin 256) (⟨16 * (r.val % 64) + kk.val % 16, by omega⟩ : Fin 1024))) k) (fun i j => x1 (ix4 (0 : Fin 1) k i j)) q
      = Cert.Spec.attGt g k (Cert.Spec.lOf s r) q := by
    unfold Cert.Spec.attGt
    refine congrArg₂ (fun u y => Cert.Spec.attOf u y q) ?_ ?_
    · funext kk
      rw [h0]
      unfold Cert.Spec.patchInd
      refine congrArg (fun x => Cert.Spec.ind x k) ?_
      refine congrArg₂ g (Fin.ext ?_) (Fin.ext ?_)
      · show 256 * s.val + (16 * (r.val / 64) + kk.val / 16) = 16 * ((1024 * s.val + r.val) / 64) + kk.val / 16
        omega
      · show 16 * (r.val % 64) + kk.val % 16 = 16 * ((1024 * s.val + r.val) % 64) + kk.val % 16
        omega
    · funext i j
      exact h1 i j
  unfold Cert.Spec.sqErr
  rw [hatt, h2]
  rfl

/-- At point `n` class trip `k` adds step `4 n + k`'s term. -/
theorem tileK_step (c : Dev nD) (n : ℕ) (hn : n < 32) (t : Fin cfg1.N) (ht : t.val = n) (k : Fin 4) :
    tileK (iblk1 (Vb m ρ) c 0 t) (iblk1 (Vb m ρ) c 1 t) (iblk1 (Vb m ρ) c 2 t) k = Cert.Spec.step (tgOf m c) (avOf m c) (4 * n + k.val) := by
  subst ht
  rw [Cert.Spec.step_of (tgOf m c) (avOf m c) (4 * t.val + k.val) ⟨t.val / 4, by omega⟩ ⟨t.val % 4, by omega⟩ k (by show 4 * t.val + k.val = k.val + 4 * (t.val % 4) + 16 * (t.val / 4); omega)]
  exact tileK_eq_tile _ _ _ _ _ k ⟨t.val % 4, by omega⟩ (fun h w => iblk1_0_apply m ρ c t hn h w) (fun p q => iblk1_1_apply m ρ c t hn k p q)
    (fun r q => iblk1_2_apply m ρ c t hn k r q)

/-- Four steps of the running sum. -/
theorem acc_four (c : Dev nD) (n : ℕ) : Cert.Spec.acc (tgOf m c) (avOf m c) (4 * (n + 1))
    = (((Cert.Spec.acc (tgOf m c) (avOf m c) (4 * n) + Cert.Spec.step (tgOf m c) (avOf m c) (4 * n + (0 : Fin 4).val)) + Cert.Spec.step (tgOf m c) (avOf m c) (4 * n + (1 : Fin 4).val))
        + Cert.Spec.step (tgOf m c) (avOf m c) (4 * n + (2 : Fin 4).val)) + Cert.Spec.step (tgOf m c) (avOf m c) (4 * n + (3 : Fin 4).val) := rfl

/-- THE ACCUMULATOR after point `n`: the running sum after 4 (n + 1) steps. -/
theorem acc_at (c : Dev nD) : ∀ (n : ℕ) (hn : n < cfg1.N),
    (outsAt1 (Vb m ρ) c n hn).2 (ix2 (0 : Fin 1) (0 : Fin 1)) = Cert.Spec.acc (tgOf m c) (avOf m c) (4 * (n + 1)) := by
  have hN : cfg1.N = 32 := N_1
  have hstep := tileK_step m ρ c
  have hacc := acc_four m c
  intro n
  induction n with
  | zero =>
    intro hn
    rw [show outsAt1 (Vb m ρ) c 0 hn = _ from outsAt1_A (Vb m ρ) c ⟨0, hn⟩ rfl (show ¬((0 : ℕ) = 31) from by decide)]
    dsimp only
    rw [sout1_A_0_apply, hacc 0, hstep 0 (by omega) ⟨0, hn⟩ rfl 0, hstep 0 (by omega) ⟨0, hn⟩ rfl 1, hstep 0 (by omega) ⟨0, hn⟩ rfl 2, hstep 0 (by omega) ⟨0, hn⟩ rfl 3]
    rfl
  | succ n ih =>
    intro hn
    have hn' : n + 1 < 32 := by omega
    by_cases h1 : n + 1 = 31
    · rw [show outsAt1 (Vb m ρ) c (n + 1) hn = _ from outsAt1_C (Vb m ρ) c ⟨n + 1, hn⟩ (Nat.succ_ne_zero n) h1]
      dsimp only
      rw [sout1_C_0_apply, hacc (n + 1), hstep (n + 1) hn' ⟨n + 1, hn⟩ rfl 0, hstep (n + 1) hn' ⟨n + 1, hn⟩ rfl 1, hstep (n + 1) hn' ⟨n + 1, hn⟩ rfl 2, hstep (n + 1) hn' ⟨n + 1, hn⟩ rfl 3]
      rw [show (outsAt1 (Vb m ρ) c ((⟨n + 1, hn⟩ : Fin cfg1.N).val - 1) (Nat.lt_of_le_of_lt (Nat.sub_le _ _) (⟨n + 1, hn⟩ : Fin cfg1.N).isLt)).2 (ix2 (0 : Fin 1) (0 : Fin 1)) = _ from ih (Nat.lt_of_succ_lt hn)]
    · rw [show outsAt1 (Vb m ρ) c (n + 1) hn = _ from outsAt1_B (Vb m ρ) c ⟨n + 1, hn⟩ (Nat.succ_ne_zero n) h1]
      dsimp only
      rw [sout1_B_0_apply, hacc (n + 1), hstep (n + 1) hn' ⟨n + 1, hn⟩ rfl 0, hstep (n + 1) hn' ⟨n + 1, hn⟩ rfl 1, hstep (n + 1) hn' ⟨n + 1, hn⟩ rfl 2, hstep (n + 1) hn' ⟨n + 1, hn⟩ rfl 3]
      rw [show (outsAt1 (Vb m ρ) c ((⟨n + 1, hn⟩ : Fin cfg1.N).val - 1) (Nat.lt_of_le_of_lt (Nat.sub_le _ _) (⟨n + 1, hn⟩ : Fin cfg1.N).isLt)).2 (ix2 (0 : Fin 1) (0 : Fin 1)) = _ from ih (Nat.lt_of_succ_lt hn)]

/-! ## The result -/

/-- The loss as the 1 × 1 result array. -/
def lossArr (c : Dev nD) : Buf (Elt Ideal) ((c : Thread nD τ).loc main_v1) := fun _ => Cert.Spec.loss (tgOf m c) (avOf m c)

/-- The only point that writes the result back is the last, and it writes the loss. -/
theorem flushed1_eq (c : Dev nD) (t : Fin cfg1.N) (hf : (cfg1.win 3).flush t = true) :
    (dat1 (Vb m ρ) c).flushed 3 t = ((cfg1.win 3).blk t).view.read (Elt Ideal) (lossArr m c) := by
  have hN : t.val < 32 := lt_of_lt_of_eq t.isLt (show cfg1.N = 32 from N_1)
  have ht : t.val = 31 := by have := (flush1_3 t).mp hf; omega
  show (cfg1.win 3).cut (grid1.coords t) ((dat1 (Vb m ρ) c).after 3 t) = _
  rw [after1_3]
  funext y
  obtain ⟨z, z', rfl⟩ : ∃ (z z' : Fin 1), y = ix2 z z' := ⟨y 0, y 1, eq_ix2 y⟩
  obtain rfl : z = 0 := Subsingleton.elim _ _
  obtain rfl : z' = 0 := Subsingleton.elim _ _
  show (outsAt1 (Vb m ρ) c t.val t.isLt).1 (ix2 (0 : Fin 1) (0 : Fin 1)) = Cert.Spec.loss (tgOf m c) (avOf m c)
  rw [outsAt1_C (Vb m ρ) c t (by omega) ht]
  dsimp only
  rw [out1_C_3_apply, tileK_step m ρ c 31 (by omega) t ht 0, tileK_step m ρ c 31 (by omega) t ht 1, tileK_step m ρ c 31 (by omega) t ht 2, tileK_step m ρ c 31 (by omega) t ht 3]
  rw [show (outsAt1 (Vb m ρ) c (t.val - 1) (Nat.lt_of_le_of_lt (Nat.sub_le _ _) t.isLt)).2 (ix2 (0 : Fin 1) (0 : Fin 1)) = _ from acc_at m ρ c (t.val - 1) _]
  rw [show 4 * (t.val - 1 + 1) = 4 * 31 from by omega, ← acc_four m c 31]
  show Cert.Spec.acc (tgOf m c) (avOf m c) 128 * _ = _
  rw [Cert.Spec.acc_total]
  rfl

theorem mem_blk1 (t : Fin cfg1.N) (i : S1x1.Idx) :
    i ∈ ((cfg1.win 3).blk t).view.set ↔ ∀ a : Fin 2, win1_3.index t a * S1x1.size a ≤ (i a).val ∧ (i a).val < win1_3.index t a * S1x1.size a + S1x1.size a := by
  show i ∈ ((View.whole main_v1).slice (win1_3.rect t)).set ↔ _
  rw [View.set_slice_whole, Rect.mem_set_unit]
  exact Iff.rfl

/-- THE RESULT ARRAY after the loss call. -/
theorem final_loss (c : Dev nD) : (dat1 (Vb m ρ) c).arrAt 3 cfg1.N = lossArr m c := by
  refine (dat1 (Vb m ρ) c).arrAt_eq_of_cover 3 (lossArr m c) (fun t hf => flushed1_eq m ρ c t hf) fun i => ?_
  have h31 : 31 < cfg1.N := by rw [show cfg1.N = 32 from N_1]; decide
  refine ⟨⟨31, h31⟩, (flush1_3 _).mpr rfl, ?_⟩
  rw [mem_blk1]
  obtain ⟨-, -, -, -, -, -, -, -, -, -, -, e0, e1⟩ := idx1 ⟨31, h31⟩
  have hi0 : (i 0).val < 1 := (i 0).isLt
  have hi1 : (i 1).val < 1 := (i 1).isLt
  intro a
  match a with
  | ⟨0, _⟩ => show win1_3.index _ (0 : Fin 2) * 1 ≤ (i 0).val ∧ (i 0).val < win1_3.index _ (0 : Fin 2) * 1 + 1; omega
  | ⟨1, _⟩ => show win1_3.index _ (1 : Fin 2) * 1 ≤ (i 1).val ∧ (i 1).val < win1_3.index _ (1 : Fin 2) * 1 + 1; omega

theorem Wc_v1 (c : Dev nD) : Wc m ρ c (Proc.devRef .tc main_v1) = lossArr m c :=
  (Wc_arr m ρ c 3).trans (final_loss m ρ c)

/-- THE SCALAR RESULT: the closing reshape of the 1 × 1 array. -/
theorem result_eq (c : Dev nD) : Wd m ρ c (Proc.devRef .tc main_v2) = fun _ => Cert.Spec.loss (tgOf m c) (avOf m c) := by
  show StableHlo.after hostOps2 (Wc m ρ c) (Proc.devRef .tc main_v2) = _
  after_results
  rw [Wc_v1]
  rfl

end Cert.KernelIdeal.Val

end
-- ==== Proof.Consts.lean ====
/-
  The float literal words of both programs as the real numbers they denote: 16, 256 and 2^25 = 33554432.
  (The word of zero is the library's `Ideal.ofBits_zero_f32`.)
-/
import Idealize.ShloMosaic.PureOps.Ideal

noncomputable section

namespace Cert.Consts

open Idealize.ShloMosaic

/-- The word `0x41800000` denotes the real 16. -/
theorem ofBits_16 : Ideal.ofBits .f32 0x41800000#32 = ((16 : ℝ) : EReal) := by
  simp [Ideal.ofBits, Ideal.ieee, -EReal.coe_mul]; norm_num

/-- The word `0x43800000` denotes the real 256. -/
theorem ofBits_256 : Ideal.ofBits .f32 0x43800000#32 = ((256 : ℝ) : EReal) := by
  simp [Ideal.ofBits, Ideal.ieee, -EReal.coe_mul]; norm_num

/-- The word `0x4C000000` denotes the real 2^25. -/
theorem ofBits_2p25 : Ideal.ofBits .f32 0x4C000000#32 = ((33554432 : ℝ) : EReal) := by
  simp [Ideal.ofBits, Ideal.ieee, -EReal.coe_mul]; norm_num

end Cert.Consts

end
-- ==== Proof.RefValue.lean ====
/-
  The reference program's result is the loss of the specification.

  Stage by stage, each value of the reference is read at an index built from its coordinates: the class indicator;
  its 4 × 4 block average (a sum over two axes of a six-axis view, divided by 16); the two patch views (a six-axis
  view, a permutation of its axes, and a four-axis view of that, which together send position 16 p + q of patch
  64 hb + wb to pixel (16 hb + p, 16 wb + q)); the contraction over the 256 positions of a patch, divided by 256;
  the squared difference; the sum over all four axes; and the division by 2^25. Division by a nonzero real is
  multiplication by its inverse on every extended real.
-/
import proofs.«167937_j47399259079182_2_alg».proof.Proof.Gen.ReferenceIdeal.Read
import proofs.«167937_j47399259079182_2_alg».proof.Proof.Spec
import proofs.«167937_j47399259079182_2_alg».proof.Proof.Consts
import Idealize.ShloMosaic.Lib.ValueIdx
import Idealize.ShloMosaic.Lib.ValueIdxRank6
import Idealize.ShloMosaic.Lib.IdealHost
import Idealize.ShloMosaic.Lib.Pipeline.Value
import Idealize.ShloMosaic.PureOps.Ideal.Laws

noncomputable section

namespace Cert.ReferenceIdeal.RefValue

open BigOperators
open Idealize.ShloMosaic Idealize.ShloMosaic.ValueIdx Idealize.SL.Sem
open Cert.ReferenceIdeal Cert.ReferenceIdeal.Gen Cert.ReferenceIdeal.Read

/-! ## Sums over a four-axis index set -/

/-- A four-axis index set is the product of its coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-! ## The class indicator -/

/-- A one-bit comparison word read as a number is 1 where the words are equal and 0 elsewhere. -/
theorem uitofp_cmpi_eq (x y : BitVec 32) :
    (FloatOps.uitofp (F := Ideal) .f32 (IntOp.cmpi .eq x y) : EReal) = if x = y then 1 else 0 := by
  show (((IntOp.cmpi .eq x y).toNat : ℝ) : EReal) = _
  by_cases h : x = y
  · simp [IntOp.cmpi, h]
  · simp [IntOp.cmpi, h]

/-- The indicator array at (b, c, h, w) is the indicator of class c at pixel (h, w) of image b. -/
theorem v17_apply (x1 : (⟨S8x1024x1024, .i32⟩ : BufTy).Contents (Elt Ideal)) (b : Fin 8) (c : Fin 4) (h w : Fin 1024) :
    val_main_v17 (F := Ideal) x1 (ix4 b c h w) = Cert.Spec.ind (x1 (ix3 b h w)) c := by
  rw [val_main_v17_apply, val_main_v16_apply, val_main_v14_apply, val_main_v11_apply, val_main_v15_apply,
    val_main_v13_apply, val_main_v12_apply, uitofp_cmpi_eq]
  have e1 : idx_main_v11 (idx_main_v14 (ix4 b c h w)) = ix3 b h w := by
    funext a; match a with | ⟨0, _⟩ => rfl | ⟨1, _⟩ => rfl | ⟨2, _⟩ => rfl
  rw [e1]
  rfl

/-! ## The 4 × 4 block average -/

/-- The six-axis view at (b, c, i, d1, j, d2) is the indicator array at pixel (4 i + d1, 4 j + d2). -/
theorem v18_apply (x1 : (⟨S8x1024x1024, .i32⟩ : BufTy).Contents (Elt Ideal)) (b : Fin 8) (c : Fin 4)
    (i : Fin 256) (d1 : Fin 4) (j : Fin 256) (d2 : Fin 4) :
    val_main_v18 (F := Ideal) x1 (ix6 b c i d1 j d2)
      = val_main_v17 (F := Ideal) x1 (ix4 b c (Cert.Spec.row4 i d1) (Cert.Spec.row4 j d2)) := by
  unfold val_main_v18
  refine shapeCast_apply _ _ _ _ ?_
  rw [Shape.rowMajor_val_four, Shape.rowMajor_val_six]
  show ((b.val * 4 + c.val) * 1024 + (4 * i.val + d1.val)) * 1024 + (4 * j.val + d2.val)
    = ((((b.val * 4 + c.val) * 256 + i.val) * 4 + d1.val) * 256 + j.val) * 4 + d2.val
  omega

/-- Dropping axes 3 and 5 of a six-axis index keeps coordinates 0, 1, 2 and 4. -/
theorem drop35 (k : S8x4x256x4x256x4.Idx) :
    reducesTo_S8x4x256x4x256x4_S8x4x256x256_d3_5.drop k
      = ix4 (k 0 : Fin 8) (k 1 : Fin 4) (k 2 : Fin 256) (k 4 : Fin 256) := by
  funext a; match a with | ⟨0, _⟩ => rfl | ⟨1, _⟩ => rfl | ⟨2, _⟩ => rfl | ⟨3, _⟩ => rfl

/-- The six-axis indices that reduce to (b, c, i, j) are (b, c, i, d1, j, d2), one for each (d1, d2). -/
theorem sum_drop35 (x : S8x4x256x4x256x4.Idx → EReal) (b : Fin 8) (c : Fin 4) (i j : Fin 256) :
    ∑ k ∈ Finset.univ.filter (fun k => reducesTo_S8x4x256x4x256x4_S8x4x256x256_d3_5.drop k = ix4 b c i j), x k
      = ∑ d1 : Fin 4, ∑ d2 : Fin 4, x (ix6 b c i d1 j d2) := by
  rw [← Fintype.sum_prod_type' (f := fun d1 d2 => x (ix6 b c i d1 j d2))]
  symm
  refine Finset.sum_nbij' (fun p => ix6 b c i p.1 j p.2) (fun k => ((k 3 : Fin 4), (k 5 : Fin 4))) ?_ ?_ ?_ ?_ ?_
  · intro p _
    rw [Finset.mem_filter]
    exact ⟨Finset.mem_univ _, drop35 _⟩
  · intro k _; exact Finset.mem_univ _
  · intro p _; rfl
  · intro k hk
    rw [Finset.mem_filter, drop35] at hk
    have h := hk.2
    have h0 : (k 0 : Fin 8) = b := congrFun h (0 : Fin 4)
    have h1 : (k 1 : Fin 4) = c := congrFun h (1 : Fin 4)
    have h2 : (k 2 : Fin 256) = i := congrFun h (2 : Fin 4)
    have h4 : (k 4 : Fin 256) = j := congrFun h (3 : Fin 4)
    show ix6 b c i (k 3 : Fin 4) j (k 5 : Fin 4) = k
    rw [← h0, ← h1, ← h2, ← h4]
    exact (eq_ix6 k).symm
  · intro p _; rfl

/-- The sum over the two block axes at (b, c, i, j): the number of pixels of class c in block (i, j). -/
theorem v19_apply (x1 : (⟨S8x1024x1024, .i32⟩ : BufTy).Contents (Elt Ideal)) (b : Fin 8) (c : Fin 4) (i j : Fin 256) :
    val_main_v19 (F := Ideal) x1 (ix4 b c i j)
      = ∑ d1 : Fin 4, ∑ d2 : Fin 4, Cert.Spec.ind (x1 (ix3 b (Cert.Spec.row4 i d1) (Cert.Spec.row4 j d2))) c := by
  unfold val_main_v19
  rw [hostReduceAdd_apply]
  unfold Ideal.hostReduceAdd
  rw [sum_drop35, val_main_cst_2_apply]
  show Ideal.ofBits .f32 0x00000000#32 + _ = _
  rw [Ideal.ofBits_zero_f32, zero_add]
  refine Finset.sum_congr rfl fun d1 _ => Finset.sum_congr rfl fun d2 _ => ?_
  rw [v18_apply, v17_apply]

/-- The block average at (b, c, i, j) is the specification's. -/
theorem v21_apply (x1 : (⟨S8x1024x1024, .i32⟩ : BufTy).Contents (Elt Ideal)) (b : Fin 8) (c : Fin 4) (i j : Fin 256) :
    val_main_v21 (F := Ideal) x1 (ix4 b c i j) = Cert.Spec.pool (fun h w => x1 (ix3 b h w)) c i j := by
  rw [val_main_v21_apply, val_main_v20_apply, val_main_cst_3_apply, v19_apply]
  show Ideal.div _ (Ideal.ofBits .f32 0x41800000#32) = _
  rw [Cert.Consts.ofBits_16, Ideal.div_coe (by norm_num : (16 : ℝ) ≠ 0)]
  rfl

/-! ## The patch views -/

/-- The six-axis view of the indicator at (b, c, hb, p, wb, q) is the indicator array at pixel (16 hb + p, 16 wb + q). -/
theorem v22_apply (x1 : (⟨S8x1024x1024, .i32⟩ : BufTy).Contents (Elt Ideal)) (b : Fin 8) (c : Fin 4)
    (hb : Fin 64) (p : Fin 16) (wb : Fin 64) (q : Fin 16) :
    val_main_v22 (F := Ideal) x1 (ix6 b c hb p wb q)
      = val_main_v17 (F := Ideal) x1 (ix4 b c (Cert.Spec.row16 hb p) (Cert.Spec.row16 wb q)) := by
  unfold val_main_v22
  refine shapeCast_apply _ _ _ _ ?_
  rw [Shape.rowMajor_val_four, Shape.rowMajor_val_six]
  show ((b.val * 4 + c.val) * 1024 + (16 * hb.val + p.val)) * 1024 + (16 * wb.val + q.val)
    = ((((b.val * 4 + c.val) * 64 + hb.val) * 16 + p.val) * 64 + wb.val) * 16 + q.val
  omega

/-- The permuted view at (b, c, p, q, hb, wb) is the six-axis view at (b, c, hb, p, wb, q). -/
theorem v23_apply (x1 : (⟨S8x1024x1024, .i32⟩ : BufTy).Contents (Elt Ideal)) (b : Fin 8) (c : Fin 4)
    (p q : Fin 16) (hb wb : Fin 64) :
    val_main_v23 (F := Ideal) x1 (ix6 b c p q hb wb) = val_main_v22 (F := Ideal) x1 (ix6 b c hb p wb q) := by
  rw [val_main_v23_apply]
  have e : idx_main_v23 (ix6 b c p q hb wb) = ix6 b c hb p wb q := by
    funext a; match a with | ⟨0, _⟩ => rfl | ⟨1, _⟩ => rfl | ⟨2, _⟩ => rfl | ⟨3, _⟩ => rfl | ⟨4, _⟩ => rfl | ⟨5, _⟩ => rfl
  rw [e]

/-- The indicator's patch view at (b, c, k, l) is the specification's: position k of query patch l. -/
theorem v24_apply (x1 : (⟨S8x1024x1024, .i32⟩ : BufTy).Contents (Elt Ideal)) (b : Fin 8) (c : Fin 4)
    (k : Fin 256) (l : Fin 4096) :
    val_main_v24 (F := Ideal) x1 (ix4 b c k l) = Cert.Spec.patchInd (fun h w => x1 (ix3 b h w)) c l k := by
  have e : val_main_v24 (F := Ideal) x1 (ix4 b c k l)
      = val_main_v23 (F := Ideal) x1 (ix6 b c (Cert.Spec.kHi k) (Cert.Spec.kLo k) (Cert.Spec.lHi l) (Cert.Spec.lLo l)) := by
    unfold val_main_v24
    refine shapeCast_apply _ _ _ _ ?_
    rw [Shape.rowMajor_val_four, Shape.rowMajor_val_six]
    show ((((b.val * 4 + c.val) * 16 + k.val / 16) * 16 + k.val % 16) * 64 + l.val / 64) * 64 + l.val % 64
      = ((b.val * 4 + c.val) * 256 + k.val) * 4096 + l.val
    have := k.isLt; have := l.isLt
    omega
  rw [e, v23_apply, v22_apply, v17_apply]
  rfl

/-- The six-axis view of the block average at (b, c, hb, p, wb, q) is the block average at (16 hb + p, 16 wb + q). -/
theorem v25_apply (x1 : (⟨S8x1024x1024, .i32⟩ : BufTy).Contents (Elt Ideal)) (b : Fin 8) (c : Fin 4)
    (hb p wb q : Fin 16) :
    val_main_v25 (F := Ideal) x1 (ix6 b c hb p wb q)
      = val_main_v21 (F := Ideal) x1 (ix4 b c (Cert.Spec.prow16 hb p) (Cert.Spec.prow16 wb q)) := by
  unfold val_main_v25
  refine shapeCast_apply _ _ _ _ ?_
  rw [Shape.rowMajor_val_four, Shape.rowMajor_val_six]
  show ((b.val * 4 + c.val) * 256 + (16 * hb.val + p.val)) * 256 + (16 * wb.val + q.val)
    = ((((b.val * 4 + c.val) * 16 + hb.val) * 16 + p.val) * 16 + wb.val) * 16 + q.val
  omega

/-- The permuted view at (b, c, p, q, hb, wb) is the six-axis view at (b, c, hb, p, wb, q). -/
theorem v26_apply (x1 : (⟨S8x1024x1024, .i32⟩ : BufTy).Contents (Elt Ideal)) (b : Fin 8) (c : Fin 4)
    (p q hb wb : Fin 16) :
    val_main_v26 (F := Ideal) x1 (ix6 b c p q hb wb) = val_main_v25 (F := Ideal) x1 (ix6 b c hb p wb q) := by
  rw [val_main_v26_apply]
  have e : idx_main_v26 (ix6 b c p q hb wb) = ix6 b c hb p wb q := by
    funext a; match a with | ⟨0, _⟩ => rfl | ⟨1, _⟩ => rfl | ⟨2, _⟩ => rfl | ⟨3, _⟩ => rfl | ⟨4, _⟩ => rfl | ⟨5, _⟩ => rfl
  rw [e]

/-- The block average's patch view at (b, c, k, m) is the specification's: position k of pooled patch m. -/
theorem v27_apply (x1 : (⟨S8x1024x1024, .i32⟩ : BufTy).Contents (Elt Ideal)) (b : Fin 8) (c : Fin 4)
    (k m : Fin 256) :
    val_main_v27 (F := Ideal) x1 (ix4 b c k m)
      = Cert.Spec.patchPool (Cert.Spec.pool (fun h w => x1 (ix3 b h w)) c) m k := by
  have e : val_main_v27 (F := Ideal) x1 (ix4 b c k m)
      = val_main_v26 (F := Ideal) x1 (ix6 b c (Cert.Spec.kHi k) (Cert.Spec.kLo k) (Cert.Spec.mHi m) (Cert.Spec.mLo m)) := by
    unfold val_main_v27
    refine shapeCast_apply _ _ _ _ ?_
    rw [Shape.rowMajor_val_four, Shape.rowMajor_val_six]
    show ((((b.val * 4 + c.val) * 16 + k.val / 16) * 16 + k.val % 16) * 16 + m.val / 16) * 16 + m.val % 16
      = ((b.val * 4 + c.val) * 256 + k.val) * 256 + m.val
    have := k.isLt; have := m.isLt
    omega
  rw [e, v26_apply, v25_apply, v21_apply]
  rfl

/-! ## The target attention, the squared error, and the loss -/

/-- The contraction at (b, c, l, m): the sum over the patch positions of indicator times block average. -/
theorem v28_apply (x1 : (⟨S8x1024x1024, .i32⟩ : BufTy).Contents (Elt Ideal)) (b : Fin 8) (c : Fin 4)
    (l : Fin 4096) (m : Fin 256) :
    val_main_v28 (F := Ideal) x1 (ix4 b c l m)
      = ∑ k : Fin 256, Cert.Spec.patchInd (fun h w => x1 (ix3 b h w)) c l k
          * Cert.Spec.patchPool (Cert.Spec.pool (fun h w => x1 (ix3 b h w)) c) m k := by
  rw [val_main_v28_apply]
  refine Finset.sum_congr rfl fun k _ => ?_
  have el : lidx_main_v28 (ix4 b c l m) k = ix4 b c k l := by
    funext a; match a with | ⟨0, _⟩ => rfl | ⟨1, _⟩ => rfl | ⟨2, _⟩ => rfl | ⟨3, _⟩ => rfl
  have er : ridx_main_v28 (ix4 b c l m) k = ix4 b c k m := by
    funext a; match a with | ⟨0, _⟩ => rfl | ⟨1, _⟩ => rfl | ⟨2, _⟩ => rfl | ⟨3, _⟩ => rfl
  rw [el, er, v24_apply, v27_apply]

/-- The contraction divided by 256 is the specification's target attention. -/
theorem v30_apply (x1 : (⟨S8x1024x1024, .i32⟩ : BufTy).Contents (Elt Ideal)) (b : Fin 8) (c : Fin 4)
    (l : Fin 4096) (m : Fin 256) :
    val_main_v30 (F := Ideal) x1 (ix4 b c l m) = Cert.Spec.attGt (fun h w => x1 (ix3 b h w)) c l m := by
  rw [val_main_v30_apply, val_main_v29_apply, val_main_cst_4_apply, v28_apply]
  show Ideal.div _ (Ideal.ofBits .f32 0x43800000#32) = _
  rw [Cert.Consts.ofBits_256, Ideal.div_coe (by norm_num : (256 : ℝ) ≠ 0)]
  rfl

/-- The squared difference at (b, c, l, m) is the specification's squared error. -/
theorem v32_apply (x1 : (⟨S8x1024x1024, .i32⟩ : BufTy).Contents (Elt Ideal))
    (x2 : (⟨S8x4x4096x256, .f32⟩ : BufTy).Contents (Elt Ideal)) (b : Fin 8) (c : Fin 4) (l : Fin 4096) (m : Fin 256) :
    val_main_v32 (F := Ideal) x1 x2 (ix4 b c l m)
      = Cert.Spec.sqErr (fun h w => x1 (ix3 b h w)) c (fun l m => x2 (ix4 b c l m)) l m := by
  rw [val_main_v32_apply, val_main_v31_apply, v30_apply]
  rfl

/-- The sum over all four axes is the specification's whole sum. -/
theorem v33_apply (x1 : (⟨S8x1024x1024, .i32⟩ : BufTy).Contents (Elt Ideal))
    (x2 : (⟨S8x4x4096x256, .f32⟩ : BufTy).Contents (Elt Ideal)) (i : S_.Idx) :
    val_main_v33 (F := Ideal) x1 x2 i
      = Cert.Spec.total (fun b h w => x1 (ix3 b h w)) (fun b c l m => x2 (ix4 b c l m)) := by
  rw [val_main_v33_apply, val_main_cst_5_apply]
  show Ideal.ofBits .f32 0x00000000#32 + _ = _
  rw [Ideal.ofBits_zero_f32, zero_add]
  refine (sum_idx4 (n0 := 8) (n1 := 4) (n2 := 4096) (n3 := 256) (fun j => val_main_v32 (F := Ideal) x1 x2 j)).trans ?_
  unfold Cert.Spec.total
  refine Finset.sum_congr rfl fun b _ => Finset.sum_congr rfl fun c _ =>
    Finset.sum_congr rfl fun l _ => Finset.sum_congr rfl fun m _ => ?_
  exact v32_apply x1 x2 b c l m

/-- The reference's result is the specification's loss of the label maps and the given attention. -/
theorem result_eq (x1 : (⟨S8x1024x1024, .i32⟩ : BufTy).Contents (Elt Ideal))
    (x2 : (⟨S8x4x4096x256, .f32⟩ : BufTy).Contents (Elt Ideal)) :
    Cert.ReferenceIdeal.Read.val_main_v34 (F := Ideal) x1 x2
      = fun _ => Cert.Spec.loss (fun b h w => x1 (ix3 b h w)) (fun b c l m => x2 (ix4 b c l m)) := by
  funext i
  rw [val_main_v34_apply, val_main_cst_6_apply, v33_apply]
  show Ideal.div _ (Ideal.ofBits .f32 0x4C000000#32) = _
  rw [Cert.Consts.ofBits_2p25, Ideal.div_coe (by norm_num : (33554432 : ℝ) ≠ 0)]
  rfl

end Cert.ReferenceIdeal.RefValue

end
-- ==== Proof.lean ====
/-
  The certificate: the kernel's program and its reference compute one function of the arguments at the ideal instance.

  The kernel pools each image's class indicators 4 × 4 in a first call and, in a second, walks the (image, band of 1024
  query patches) pairs accumulating, class by class, the sum of squared differences between the given attention and the
  mean over a patch of indicator times pooled indicator; at the last pair it scales the sum by 2^-25. The reference
  forms the same quantities as whole arrays and takes their mean. The two agree because a sum over all images, classes,
  query patches and pooled patches may be taken band by band in any order, and dividing by 16, 256 and 2^25 is
  multiplying by their reciprocals. Each program's frame — it terminates, faults nowhere and leaves its arguments as
  launched — is read off its run; the word-level kernel needs nothing more. The ideal pass rewrote nothing, so the
  idealization claim is trivial.
-/
import proofs.«167937_j47399259079182_2_alg».proof.Defs
import proofs.«167937_j47399259079182_2_alg».proof.Proof.Gen.Kernel
import proofs.«167937_j47399259079182_2_alg».proof.Proof.Gen.KernelIdeal
import proofs.«167937_j47399259079182_2_alg».proof.Proof.Gen.ReferenceIdeal
import proofs.«167937_j47399259079182_2_alg».proof.Proof.Gen.Pre_finite_inputs
import proofs.«167937_j47399259079182_2_alg».proof.Proof.Gen.ReferenceIdeal.Run
import proofs.«167937_j47399259079182_2_alg».proof.Proof.Gen.ReferenceIdeal.Read
import proofs.«167937_j47399259079182_2_alg».proof.Proof.K.Main
import proofs.«167937_j47399259079182_2_alg».proof.Proof.KI.Main
import proofs.«167937_j47399259079182_2_alg».proof.Proof.Val
import proofs.«167937_j47399259079182_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel's frame: its run ends with every unscoped buffer at the last boundary's contents, where the
    arguments hold what they were launched with. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.Wd_main_arg0 m ρ c),
     (h c _ (Cert.Kernel.Hand.mem_uc Cert.Kernel.main_arg1 (by decide))).trans (Cert.Kernel.Hand.Wd_main_arg1 m ρ c),
     (h c _ (Cert.Kernel.Hand.mem_uc Cert.Kernel.main_arg2 (by decide))).trans (Cert.Kernel.Hand.Wd_main_arg2 m ρ c)⟩)
    (Cert.Kernel.Hand.run_all (F := Bits) m ρ)

/-- The idealized kernel's frame, the same way. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.Wd_main_arg0 m ρ c),
     (h c _ (Cert.KernelIdeal.Hand.mem_uc Cert.KernelIdeal.main_arg1 (by decide))).trans (Cert.KernelIdeal.Hand.Wd_main_arg1 m ρ c),
     (h c _ (Cert.KernelIdeal.Hand.mem_uc Cert.KernelIdeal.main_arg2 (by decide))).trans (Cert.KernelIdeal.Hand.Wd_main_arg2 m ρ c)⟩)
    (Cert.KernelIdeal.Hand.run_all (F := Ideal) m ρ)

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the loss of the launched label maps and attentions as their scalar result. -/
theorem algebraic : Cert.algebraic_KernelIdeal_ReferenceIdeal := by
  intro m ρ m' ρ' _ hagree
  refine ⟨fun c => fun _ => Cert.Spec.loss (Cert.KernelIdeal.Val.tgOf m c) (Cert.KernelIdeal.Val.avOf m c), ?_, ?_⟩
  · exact (θ_run Cert.KernelIdeal.defs _ _).mono (fun r h c =>
      ⟨(h c _ (Cert.KernelIdeal.Hand.mem_uc Cert.KernelIdeal.main_v2 (by decide))).trans (Cert.KernelIdeal.Val.result_eq m ρ c),
       (h c _ (Cert.KernelIdeal.Hand.mem_uc Cert.KernelIdeal.main_arg0 (by decide))).trans (Cert.KernelIdeal.Hand.Wd_main_arg0 m ρ c),
       (h c _ (Cert.KernelIdeal.Hand.mem_uc Cert.KernelIdeal.main_arg1 (by decide))).trans (Cert.KernelIdeal.Hand.Wd_main_arg1 m ρ c),
       (h c _ (Cert.KernelIdeal.Hand.mem_uc Cert.KernelIdeal.main_arg2 (by decide))).trans (Cert.KernelIdeal.Hand.Wd_main_arg2 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, Cert.ReferenceIdeal.RefValue.result_eq, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
